-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S100000x128 : Shape := ⟨2, ![100000, 128]⟩
abbrev S2x3200000 : Shape := ⟨2, ![2, 3200000]⟩
abbrev S32x32 : Shape := ⟨2, ![32, 32]⟩
abbrev S32 : Shape := ⟨1, ![32]⟩
abbrev S128x32 : Shape := ⟨2, ![128, 32]⟩
abbrev S64x32 : Shape := ⟨2, ![64, 32]⟩
abbrev S32x20 : Shape := ⟨2, ![32, 20]⟩
abbrev S20 : Shape := ⟨1, ![20]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S128x32 : S_.BroadcastsInDim S128x32 (![] : Fin 0 → Fin S128x32.rank)
  reducesTo_S128x32_S_d0_1 : S128x32.ReducesTo [0, 1] S_
  bcast_S_S64x32 : S_.BroadcastsInDim S64x32 (![] : Fin 0 → Fin S64x32.rank)
  reducesTo_S64x32_S_d0_1 : S64x32.ReducesTo [0, 1] S_
  bcast_S_S32x20 : S_.BroadcastsInDim S32x20 (![] : Fin 0 → Fin S32x20.rank)
  reducesTo_S32x20_S_d0_1 : S32x20.ReducesTo [0, 1] S_
  bcast_S_S20 : S_.BroadcastsInDim S20 (![] : Fin 0 → Fin S20.rank)
  reducesTo_S20_S_d0 : S20.ReducesTo [0] S_

variable [Facts]

def fn_part2 {F : FTy → Type} [FloatOps F] (main_arg8 : FVec F S32 .f32) (main_arg9 : FVec F S32x20 .f32) (main_arg10 : FVec F S20 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x20 .f32 := Host.absf main_arg9
  let main_cst_14 : FVec F S_ .f32 := constant S_ .f32 0x7F800000#32
  let main_v40 : FVec F S32x20 .f32 := broadcastInDim S32x20 ![] bcast_S_S32x20 main_cst_14
  let main_v41 : IVec S32x20 1 := cmpf .olt main_v39 main_v40
  let main_c_15 : IVec S_ 1 := constantI S_ 1 1#1
  let main_v42 : IVec S_ 1 := (fun x v => Host.reduce IntOp.andi x v reducesTo_S32x20_S_d0_1 h_S_) main_v41 main_c_15
  let main_v43 : IVec S_ 1 := andi main_v38 main_v42
  let main_v44 : FVec F S20 .f32 := Host.absf main_arg10
  let main_cst_16 : FVec F S_ .f32 := constant S_ .f32 0x7F800000#32
  let main_v45 : FVec F S20 .f32 := broadcastInDim S20 ![] bcast_S_S20 main_cst_16
  let main_v46 : IVec S20 1 := cmpf .olt main_v44 main_v45
  let main_c_17 : IVec S_ 1 := constantI S_ 1 1#1
  let main_v47 : IVec S_ 1 := (fun x v => Host.reduce IntOp.andi x v reducesTo_S20_S_d0 h_S_) main_v46 main_c_17
  let main_v48 : IVec S_ 1 := andi main_v43 main_v47
  main_v48

def fn_part1 {F : FTy → Type} [FloatOps F] (main_arg5 : FVec F S128x32 .f32) (main_arg6 : FVec F S32 .f32) (main_arg7 : FVec F S64x32 .f32) (main_arg8 : FVec F S32 .f32) (main_arg9 : FVec F S32x20 .f32) (main_arg10 : FVec F S20 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S128x32 .f32 := Host.absf main_arg5
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x32 .f32) (main_arg1 : FVec F S100000x128 .f32) (main_arg2 : IVec S2x3200000 32) (main_arg3 : FVec F S32x32 .f32) (main_arg4 : FVec F S32 .f32) (main_arg5 : FVec F S128x32 .f32) (main_arg6 : FVec F S32 .f32) (main_arg7 : FVec F S64x32 .f32) (main_arg8 : FVec F S32 .f32) (main_arg9 : FVec F S32x20 .f32) (main_arg10 : FVec F S20 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S32x32 .f32 := Host.absf main_arg3
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_v13 main_v16
-- ==== Kernel.lean ====
abbrev S100000x32 : Shape := ⟨2, ![100000, 32]⟩
abbrev S100000x128 : Shape := ⟨2, ![100000, 128]⟩
abbrev S2x3200000 : Shape := ⟨2, ![2, 3200000]⟩
abbrev S32x32 : Shape := ⟨2, ![32, 32]⟩
abbrev S32 : Shape := ⟨1, ![32]⟩
abbrev S128x32 : Shape := ⟨2, ![128, 32]⟩
abbrev S64x32 : Shape := ⟨2, ![64, 32]⟩
abbrev S32x20 : Shape := ⟨2, ![32, 20]⟩
abbrev S20 : Shape := ⟨1, ![20]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S1x32 : Shape := ⟨2, ![1, 32]⟩
abbrev S5000x32 : Shape := ⟨2, ![5000, 32]⟩
abbrev S5000x128 : Shape := ⟨2, ![5000, 128]⟩
abbrev S3200000x32 : Shape := ⟨2, ![3200000, 32]⟩
abbrev S100000x20 : Shape := ⟨2, ![100000, 20]⟩
abbrev S5000x1 : Shape := ⟨2, ![5000, 1]⟩
abbrev S5000x20 : Shape := ⟨2, ![5000, 20]⟩
abbrev S3200000x20 : Shape := ⟨2, ![3200000, 20]⟩
abbrev S1x20 : Shape := ⟨2, ![1, 20]⟩

abbrev nBuf : Space → Nat
  | .hbm => 87
  | .vmem => 31
  | .smem => 0
  | _ => 0

abbrev bufTy : (tb : Table) → Fin (tcTables nBuf tb) → BufTy
  | .hbm, ⟨0, _⟩ => ⟨S100000x32, .f32⟩
  | .hbm, ⟨1, _⟩ => ⟨S100000x128, .f32⟩
  | .hbm, ⟨2, _⟩ => ⟨S2x3200000, .i32⟩
  | .hbm, ⟨3, _⟩ => ⟨S32x32, .f32⟩
  | .hbm, ⟨4, _⟩ => ⟨S32, .f32⟩
  | .hbm, ⟨5, _⟩ => ⟨S128x32, .f32⟩
  | .hbm, ⟨6, _⟩ => ⟨S32, .f32⟩
  | .hbm, ⟨7, _⟩ => ⟨S64x32, .f32⟩
  | .hbm, ⟨8, _⟩ => ⟨S32, .f32⟩
  | .hbm, ⟨9, _⟩ => ⟨S32x20, .f32⟩
  | .hbm, ⟨10, _⟩ => ⟨S20, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .f32⟩
  | .hbm, ⟨16, _⟩ => ⟨S3200000, .f32⟩
  | .hbm, ⟨17, _⟩ => ⟨S_, .f32⟩
  | .hbm, ⟨18, _⟩ => ⟨S100000, .f32⟩
  | .hbm, ⟨19, _⟩ => ⟨S3200000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000, .f32⟩
  | .hbm, ⟨43, _⟩ => ⟨S3200000, .f32⟩
  | .hbm, ⟨44, _⟩ => ⟨S100000, .f32⟩
  | .hbm, ⟨45, _⟩ => ⟨S100000x1, .f32⟩
  | .hbm, ⟨46, _⟩ => ⟨S32x32, .f32⟩
  | .hbm, ⟨47, _⟩ => ⟨S32x32, .f32⟩
  | .hbm, ⟨48, _⟩ => ⟨S1x32, .f32⟩
  | .hbm, ⟨49, _⟩ => ⟨S1x32, .f32⟩
  | .hbm, ⟨50, _⟩ => ⟨S100000x32, .f32⟩
  | .hbm, ⟨51, _⟩ => ⟨S_, .i32⟩
  | .hbm, ⟨52, _⟩ => ⟨S3200000, .i32⟩
  | .hbm, ⟨53, _⟩ => ⟨S3200000, .i1⟩
  | .hbm, ⟨54, _⟩ => ⟨S_, .i32⟩
  | .hbm, ⟨55, _⟩ => ⟨S3200000, .i32⟩
  | .hbm, ⟨56, _⟩ => ⟨S3200000, .i32⟩
  | .hbm, ⟨57, _⟩ => ⟨S3200000, .i32⟩
  | .hbm, ⟨58, _⟩ => ⟨S3200000x1, .i32⟩
  | .hbm, ⟨59, _⟩ => ⟨S3200000x32, .f32⟩
  | .hbm, ⟨60, _⟩ => ⟨S3200000x1, .f32⟩
  | .hbm, ⟨61, _⟩ => ⟨S3200000x32, .f32⟩
  | .hbm, ⟨62, _⟩ => ⟨S3200000x32, .f32⟩
  | .hbm, ⟨63, _⟩ => ⟨S_, .f32⟩
  | .hbm, ⟨64, _⟩ => ⟨S100000x32, .f32⟩
  | .hbm, ⟨65, _⟩ => ⟨S3200000x1, .i32⟩
  | .hbm, ⟨66, _⟩ => ⟨S100000x32, .f32⟩
  | .hbm, ⟨67, _⟩ => ⟨S1x32, .f32⟩
  | .hbm, ⟨68, _⟩ => ⟨S100000x20, .f32⟩
  | .hbm, ⟨69, _⟩ => ⟨S_, .i32⟩
  | .hbm, ⟨70, _⟩ => ⟨S3200000, .i32⟩
  | .hbm, ⟨71, _⟩ => ⟨S3200000, .i1⟩
  | .hbm, ⟨72, _⟩ => ⟨S_, .i32⟩
  | .hbm, ⟨73, _⟩ => ⟨S3200000, .i32⟩
  | .hbm, ⟨74, _⟩ => ⟨S3200000, .i32⟩
  | .hbm, ⟨75, _⟩ => ⟨S3200000, .i32⟩
  | .hbm, ⟨76, _⟩ => ⟨S3200000x1, .i32⟩
  | .hbm, ⟨77, _⟩ => ⟨S3200000x20, .f32⟩
  | .hbm, ⟨78, _⟩ => ⟨S3200000x1, .f32⟩
  | .hbm, ⟨79, _⟩ => ⟨S3200000x20, .f32⟩
  | .hbm, ⟨80, _⟩ => ⟨S3200000x20, .f32⟩
  | .hbm, ⟨81, _⟩ => ⟨S_, .f32⟩
  | .hbm, ⟨82, _⟩ => ⟨S100000x20, .f32⟩
  | .hbm, ⟨83, _⟩ => ⟨S3200000x1, .i32⟩
  | .hbm, ⟨84, _⟩ => ⟨S100000x20, .f32⟩
  | .hbm, ⟨85, _⟩ => ⟨S1x20, .f32⟩
  | .hbm, ⟨86, _⟩ => ⟨S100000x20, .f32⟩
  | .local _ .vmem, ⟨0, _⟩ => ⟨S5000x32, .f32⟩
  | .local _ .vmem, ⟨1, _⟩ => ⟨S5000x32, .f32⟩
  | .local _ .vmem, ⟨2, _⟩ => ⟨S5000x128, .f32⟩
  | .local _ .vmem, ⟨3, _⟩ => ⟨S5000x128, .f32⟩
  | .local _ .vmem, ⟨4, _⟩ => ⟨S32x32, .f32⟩
  | .local _ .vmem, ⟨5, _⟩ => ⟨S1x32, .f32⟩
  | .local _ .vmem, ⟨6, _⟩ => ⟨S128x32, .f32⟩
  | .local _ .vmem, ⟨7, _⟩ => ⟨S1x32, .f32⟩
  | .local _ .vmem, ⟨8, _⟩ => ⟨S32x32, .f32⟩
  | .local _ .vmem, ⟨9, _⟩ => ⟨S32x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x1, .f32⟩
  | .local _ .vmem, ⟨17, _⟩ => ⟨S5000x1, .f32⟩
  | .local _ .vmem, ⟨18, _⟩ => ⟨S1x32, .f32⟩
  | .local _ .vmem, ⟨19, _⟩ => ⟨S32x20, .f32⟩
  | .local _ .vmem, ⟨20, _⟩ => ⟨S5000x20, .f32⟩
  | .local _ .vmem, ⟨21, _⟩ => ⟨S5000x20, .f32⟩
  | .local _ .vmem, ⟨22, _⟩ => ⟨S5000x20, .f32⟩
  | .local _ .vmem, ⟨23, _⟩ => ⟨S5000x20, .f32⟩
  | .local _ .vmem, ⟨24, _⟩ => ⟨S5000x20, .f32⟩
  | .local _ .vmem, ⟨25, _⟩ => ⟨S5000x20, .f32⟩
  | .local _ .vmem, ⟨26, _⟩ => ⟨S5000x1, .f32⟩
  | .local _ .vmem, ⟨27, _⟩ => ⟨S5000x1, .f32⟩
  | .local _ .vmem, ⟨28, _⟩ => ⟨S1x20, .f32⟩
  | .local _ .vmem, ⟨29, _⟩ => ⟨S5000x20, .f32⟩
  | .local _ .vmem, ⟨30, _⟩ => ⟨S5000x20, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg4_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem4_1 : DmaSem sig := 30

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x20 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x20 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x20 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x20 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x20 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x20 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  slices_S64x32_S32x32_0_0 : S64x32.Slices ![0, 0] S32x32
  slices_S64x32_S32x32_32_0 : S64x32.Slices ![32, 0] S32x32
  shapeCasts_S32_S1x32 : S32.ShapeCasts S1x32
  inb_S5000x32_S5000x32_0_0 : ∀ a, (![0, 0] : Fin 2 → Nat) a + S5000x32.size a ≤ S5000x32.size a
  h_S5000x32 : 0 < S5000x32.numel
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x128_S5000x128_0_0 : ∀ a, (![0, 0] : Fin 2 → Nat) a + S5000x128.size a ≤ S5000x128.size a
  h_S5000x128 : 0 < S5000x128.numel
  inb_S128x32_S128x32_0_0 : ∀ a, (![0, 0] : Fin 2 → Nat) a + S128x32.size a ≤ S128x32.size a
  h_S128x32 : 0 < S128x32.numel
  shapeCasts_S32x32_S32x32 : S32x32.ShapeCasts S32x32
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S32x20_S32x20_0_0 : ∀ a, (![0, 0] : Fin 2 → Nat) a + S32x20.size a ≤ S32x20.size a
  h_S32x20 : 0 < S32x20.numel
  inb_S5000x20_S5000x20_0_0 : ∀ a, (![0, 0] : Fin 2 → Nat) a + S5000x20.size a ≤ S5000x20.size a
  h_S5000x20 : 0 < S5000x20.numel
  bcast_S3200000x1_S3200000x20_0_1 : S3200000x1.BroadcastsInDim S3200000x20 (![0, 1] : Fin 2 → Fin S3200000x20.rank)
  bcast_S_S100000x20 : S_.BroadcastsInDim S100000x20 (![] : Fin 0 → Fin S100000x20.rank)
  shapeCasts_S20_S1x20 : S20.ShapeCasts S1x20
  shapeCasts_S5000x20_S5000x20 : S5000x20.ShapeCasts S5000x20
  broadcasts_S5000x1_S5000x20 : S5000x1.Broadcasts S5000x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S5000x20 : S1x20.Broadcasts S5000x20
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x32_S32x32_S5000x32_1_0_0_1_n_n_wf : DotDims.WF S5000x32 S32x32 S5000x32 [1] [0] [0] [1] [] []
  dot_S5000x128_S128x32_S5000x32_1_0_0_1_n_n_wf : DotDims.WF S5000x128 S128x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x20_S5000x20_1_0_0_1_n_n_wf : DotDims.WF S5000x32 S32x20 S5000x20 [1] [0] [0] [1] [] []
  gather_S100000x20_S3200000x1_S3200000x20_1_0_n_n_0_1_120_wf : GatherDims.WF S100000x20 S3200000x1 S3200000x20 [1] [0] [] [0] [] 1 ![1, 20]
  scatter_S100000x20_S3200000x1_S3200000x20_1_0_0_1_wf : ScatterDims.WF S100000x20 S3200000x1 S3200000x20 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S128x32.size a
  hwx0_4 : ∀ i : grid0.Coords, EltTy.bits .f32 = 32 ∨ (Rect.block (s := S128x32) S128x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x32.size a ≤ S100000x32.size a
  hwx0_8 : ∀ i : grid0.Coords, EltTy.bits .f32 = 32 ∨ (Rect.block (s := S100000x32) S5000x32.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x20.size a ≤ S32x20.size a
  hwx1_4 : ∀ i : grid1.Coords, EltTy.bits .f32 = 32 ∨ (Rect.block (s := S32x20) S32x20.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x20.size a ≤ S100000x20.size a
  hwx1_5 : ∀ i : grid1.Coords, EltTy.bits .f32 = 32 ∨ (Rect.block (s := S100000x20) S5000x20.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x20.size a ≤ S100000x20.size a
  hwx2_0 : ∀ i : grid2.Coords, EltTy.bits .f32 = 32 ∨ (Rect.block (s := S100000x20) S5000x20.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x20.size a ≤ S100000x20.size a
  hwx2_1 : ∀ i : grid2.Coords, EltTy.bits .f32 = 32 ∨ (Rect.block (s := S100000x20) S5000x20.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x20.size a ≤ S1x20.size a
  hwx2_3 : ∀ i : grid2.Coords, EltTy.bits .f32 = 32 ∨ (Rect.block (s := S1x20) S1x20.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x20.size a ≤ S100000x20.size a
  hwx2_4 : ∀ i : grid2.Coords, EltTy.bits .f32 = 32 ∨ (Rect.block (s := S100000x20) S5000x20.size (cc2_transform_4 i) (hinb2_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x20_S5000x20_1_0_0_1_n_n : DotDims S5000x32 S32x20 S5000x20 where
  lhsContracting := [1]
  rhsContracting := [0]
  lhsNonContracting := [0]
  rhsNonContracting := [1]
  lhsBatch := []
  rhsBatch := []
  wf := dot_S5000x32_S32x20_S5000x20_1_0_0_1_n_n_wf
def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf
def scatter_S100000x20_S3200000x1_S3200000x20_1_0_0_1 : ScatterDims S100000x20 S3200000x1 S3200000x20 where
  updateWindowDims := [1]
  insertedWindowDims := [0]
  scatterDimsToOperandDims := [0]
  indexVectorDim := 1
  wf := scatter_S100000x20_S3200000x1_S3200000x20_1_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v32) S5000x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v45) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S32x20.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x20.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S5000x20.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x20.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x20.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S5000x20.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x32 : Shape := ⟨2, ![100000, 32]⟩
abbrev S100000x128 : Shape := ⟨2, ![100000, 128]⟩
abbrev S2x3200000 : Shape := ⟨2, ![2, 3200000]⟩
abbrev S32x32 : Shape := ⟨2, ![32, 32]⟩
abbrev S32 : Shape := ⟨1, ![32]⟩
abbrev S128x32 : Shape := ⟨2, ![128, 32]⟩
abbrev S64x32 : Shape := ⟨2, ![64, 32]⟩
abbrev S32x20 : Shape := ⟨2, ![32, 20]⟩
abbrev S20 : Shape := ⟨1, ![20]⟩
abbrev S1x3200000 : Shape := ⟨2, ![1, 3200000]⟩
abbrev S3200000 : Shape := ⟨1, ![3200000]⟩
abbrev S1x32 : Shape := ⟨2, ![1, 32]⟩
abbrev S100000x64 : Shape := ⟨2, ![100000, 64]⟩
abbrev S_ : Shape := ⟨0, ![]⟩
abbrev S100000 : Shape := ⟨1, ![100000]⟩
abbrev S3200000x1 : Shape := ⟨2, ![3200000, 1]⟩
abbrev S3200000x32 : Shape := ⟨2, ![3200000, 32]⟩
abbrev S100000x1 : Shape := ⟨2, ![100000, 1]⟩
abbrev S100000x20 : Shape := ⟨2, ![100000, 20]⟩
abbrev S3200000x20 : Shape := ⟨2, ![3200000, 20]⟩
abbrev S1x20 : Shape := ⟨2, ![1, 20]⟩

abbrev nBuf : Space → Nat
  | .hbm => 138
  | .vmem => 0
  | .smem => 0
  | _ => 0

abbrev hbmTy0_0 (i : Nat) : BufTy := match i % 128 with
  | 0 => ⟨S100000x32, .f32⟩
  | 1 => ⟨S100000x128, .f32⟩
  | 2 => ⟨S2x3200000, .i32⟩
  | 3 => ⟨S32x32, .f32⟩
  | 4 => ⟨S32, .f32⟩
  | 5 => ⟨S128x32, .f32⟩
  | 6 => ⟨S32, .f32⟩
  | 7 => ⟨S64x32, .f32⟩
  | 8 => ⟨S32, .f32⟩
  | 9 => ⟨S32x20, .f32⟩
  | 10 => ⟨S20, .f32⟩
  | 11 => ⟨S1x3200000, .i32⟩
  | 12 => ⟨S3200000, .i32⟩
  | 13 => ⟨S1x3200000, .i32⟩
  | 14 => ⟨S3200000, .i32⟩
  | 15 => ⟨S100000x32, .f32⟩
  | 16 => ⟨S1x32, .f32⟩
  | 17 => ⟨S100000x32, .f32⟩
  | 18 => ⟨S100000x32, .f32⟩
  | 19 => ⟨S100000x32, .f32⟩
  | 20 => ⟨S1x32, .f32⟩
  | 21 => ⟨S100000x32, .f32⟩
  | 22 => ⟨S100000x32, .f32⟩
  | 23 => ⟨S100000x64, .f32⟩
  | 24 => ⟨S_, .f32⟩
  | 25 => ⟨S100000x64, .f32⟩
  | 26 => ⟨S100000x64, .f32⟩
  | 27 => ⟨S100000x32, .f32⟩
  | 28 => ⟨S_, .f32⟩
  | 29 => ⟨S3200000, .f32⟩
  | 30 => ⟨S_, .f32⟩
  | 31 => ⟨S100000, .f32⟩
  | 32 => ⟨S3200000x1, .i32⟩
  | 33 => ⟨S100000, .f32⟩
  | 34 => ⟨S_, .f32⟩
  | 35 => ⟨S100000, .f32⟩
  | 36 => ⟨S100000, .f32⟩
  | 37 => ⟨S100000, .f32⟩
  | 38 => ⟨S_, .i32⟩
  | 39 => ⟨S3200000, .i32⟩
  | 40 => ⟨S3200000, .i1⟩
  | 41 => ⟨S_, .i32⟩
  | 42 => ⟨S3200000, .i32⟩
  | 43 => ⟨S3200000, .i32⟩
  | 44 => ⟨S3200000, .i32⟩
  | 45 => ⟨S3200000x1, .i32⟩
  | 46 => ⟨S3200000, .f32⟩
  | 47 => ⟨S_, .i32⟩
  | 48 => ⟨S3200000, .i32⟩
  | 49 => ⟨S3200000, .i1⟩
  | 50 => ⟨S_, .i32⟩
  | 51 => ⟨S3200000, .i32⟩
  | 52 => ⟨S3200000, .i32⟩
  | 53 => ⟨S3200000, .i32⟩
  | 54 => ⟨S3200000x1, .i32⟩
  | 55 => ⟨S3200000, .f32⟩
  | 56 => ⟨S3200000, .f32⟩
  | 57 => ⟨S_, .i32⟩
  | 58 => ⟨S3200000, .i32⟩
  | 59 => ⟨S3200000, .i1⟩
  | 60 => ⟨S_, .i32⟩
  | 61 => ⟨S3200000, .i32⟩
  | 62 => ⟨S3200000, .i32⟩
  | 63 => ⟨S3200000, .i32⟩
  | 64 => ⟨S3200000x1, .i32⟩
  | 65 => ⟨S3200000x32, .f32⟩
  | 66 => ⟨S3200000x1, .f32⟩
  | 67 => ⟨S3200000x32, .f32⟩
  | 68 => ⟨S3200000x32, .f32⟩
  | 69 => ⟨S_, .f32⟩
  | 70 => ⟨S100000x32, .f32⟩
  | 71 => ⟨S3200000x1, .i32⟩
  | 72 => ⟨S100000x32, .f32⟩
  | 73 => ⟨S100000, .f32⟩
  | 74 => ⟨S100000x1, .f32⟩
  | 75 => ⟨S100000x32, .f32⟩
  | 76 => ⟨S100000x32, .f32⟩
  | 77 => ⟨S100000x32, .f32⟩
  | 78 => ⟨S1x32, .f32⟩
  | 79 => ⟨S100000x32, .f32⟩
  | 80 => ⟨S100000x32, .f32⟩
  | 81 => ⟨S_, .f32⟩
  | 82 => ⟨S100000x32, .f32⟩
  | 83 => ⟨S100000x32, .f32⟩
  | 84 => ⟨S100000x20, .f32⟩
  | 85 => ⟨S_, .f32⟩
  | 86 => ⟨S3200000, .f32⟩
  | 87 => ⟨S_, .f32⟩
  | 88 => ⟨S100000, .f32⟩
  | 89 => ⟨S3200000x1, .i32⟩
  | 90 => ⟨S100000, .f32⟩
  | 91 => ⟨S_, .f32⟩
  | 92 => ⟨S100000, .f32⟩
  | 93 => ⟨S100000, .f32⟩
  | 94 => ⟨S100000, .f32⟩
  | 95 => ⟨S_, .i32⟩
  | 96 => ⟨S3200000, .i32⟩
  | 97 => ⟨S3200000, .i1⟩
  | 98 => ⟨S_, .i32⟩
  | 99 => ⟨S3200000, .i32⟩
  | 100 => ⟨S3200000, .i32⟩
  | 101 => ⟨S3200000, .i32⟩
  | 102 => ⟨S3200000x1, .i32⟩
  | 103 => ⟨S3200000, .f32⟩
  | 104 => ⟨S_, .i32⟩
  | 105 => ⟨S3200000, .i32⟩
  | 106 => ⟨S3200000, .i1⟩
  | 107 => ⟨S_, .i32⟩
  | 108 => ⟨S3200000, .i32⟩
  | 109 => ⟨S3200000, .i32⟩
  | 110 => ⟨S3200000, .i32⟩
  | 111 => ⟨S3200000x1, .i32⟩
  | 112 => ⟨S3200000, .f32⟩
  | 113 => ⟨S3200000, .f32⟩
  | 114 => ⟨S_, .i32⟩
  | 115 => ⟨S3200000, .i32⟩
  | 116 => ⟨S3200000, .i1⟩
  | 117 => ⟨S_, .i32⟩
  | 118 => ⟨S3200000, .i32⟩
  | 119 => ⟨S3200000, .i32⟩
  | 120 => ⟨S3200000, .i32⟩
  | 121 => ⟨S3200000x1, .i32⟩
  | 122 => ⟨S3200000x20, .f32⟩
  | 123 => ⟨S3200000x1, .f32⟩
  | 124 => ⟨S3200000x20, .f32⟩
  | 125 => ⟨S3200000x20, .f32⟩
  | 126 => ⟨S_, .f32⟩
  | 127 => ⟨S100000x20, .f32⟩
  | _ => ⟨S100000x32, .f32⟩

abbrev hbmTy0_1 (i : Nat) : BufTy := match i % 128 with
  | 0 => ⟨S3200000x1, .i32⟩
  | 1 => ⟨S100000x20, .f32⟩
  | 2 => ⟨S100000, .f32⟩
  | 3 => ⟨S100000x1, .f32⟩
  | 4 => ⟨S100000x20, .f32⟩
  | 5 => ⟨S100000x20, .f32⟩
  | 6 => ⟨S100000x20, .f32⟩
  | 7 => ⟨S1x20, .f32⟩
  | 8 => ⟨S100000x20, .f32⟩
  | 9 => ⟨S100000x20, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_cst : Ref sig .tc := ⟨.hbm, 24, rfl⟩
abbrev main_call0_v0 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_v23 : Ref sig .tc := ⟨.hbm, 40, rfl⟩
abbrev main_c_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_3 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_5 : Ref sig .tc := ⟨.hbm, 57, rfl⟩
abbrev main_v37 : Ref sig .tc := ⟨.hbm, 58, rfl⟩
abbrev main_v38 : Ref sig .tc := ⟨.hbm, 59, rfl⟩
abbrev main_c_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_v59 : Ref sig .tc := ⟨.hbm, 84, rfl⟩
abbrev main_cst_8 : Ref sig .tc := ⟨.hbm, 85, rfl⟩
abbrev main_v60 : Ref sig .tc := ⟨.hbm, 86, rfl⟩
abbrev main_cst_9 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_10 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_11 : Ref sig .tc := ⟨.hbm, 95, rfl⟩
abbrev main_v67 : Ref sig .tc := ⟨.hbm, 96, rfl⟩
abbrev main_v68 : Ref sig .tc := ⟨.hbm, 97, rfl⟩
abbrev main_c_12 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_13 : Ref sig .tc := ⟨.hbm, 104, rfl⟩
abbrev main_v74 : Ref sig .tc := ⟨.hbm, 105, rfl⟩
abbrev main_v75 : Ref sig .tc := ⟨.hbm, 106, rfl⟩
abbrev main_c_14 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_15 : Ref sig .tc := ⟨.hbm, 114, rfl⟩
abbrev main_v82 : Ref sig .tc := ⟨.hbm, 115, rfl⟩
abbrev main_v83 : Ref sig .tc := ⟨.hbm, 116, rfl⟩
abbrev main_c_16 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_17 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  concatenates_S100000x32_S100000x32_S100000x64_d1 : Shape.Concatenates [S100000x32, S100000x32] S100000x64 1
  bcast_S_S100000x64 : S_.BroadcastsInDim S100000x64 (![] : Fin 0 → Fin S100000x64.rank)
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S3200000x1_S3200000x20_0_1 : S3200000x1.BroadcastsInDim S3200000x20 (![0, 1] : Fin 2 → Fin S3200000x20.rank)
  bcast_S_S100000x20 : S_.BroadcastsInDim S100000x20 (![] : Fin 0 → Fin S100000x20.rank)
  bcast_S100000x1_S100000x20_0_1 : S100000x1.BroadcastsInDim S100000x20 (![0, 1] : Fin 2 → Fin S100000x20.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  dot_S100000x32_S32x32_S100000x32_1_0_0_1_n_n_wf : DotDims.WF S100000x32 S32x32 S100000x32 [1] [0] [0] [1] [] []
  dot_S100000x128_S128x32_S100000x32_1_0_0_1_n_n_wf : DotDims.WF S100000x128 S128x32 S100000x32 [1] [0] [0] [1] [] []
  dot_S100000x64_S64x32_S100000x32_1_0_0_1_n_n_wf : DotDims.WF S100000x64 S64x32 S100000x32 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x20_S100000x20_1_0_0_1_n_n_wf : DotDims.WF S100000x32 S32x20 S100000x20 [1] [0] [0] [1] [] []
  gather_S100000x20_S3200000x1_S3200000x20_1_0_n_n_0_1_120_wf : GatherDims.WF S100000x20 S3200000x1 S3200000x20 [1] [0] [] [0] [] 1 ![1, 20]
  scatter_S100000x20_S3200000x1_S3200000x20_1_0_0_1_wf : ScatterDims.WF S100000x20 S3200000x1 S3200000x20 [1] [0] [0] 1

variable [Facts₀]

def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x20_S100000x20_1_0_0_1_n_n : DotDims S100000x32 S32x20 S100000x20 where
  lhsContracting := [1]
  rhsContracting := [0]
  lhsNonContracting := [0]
  rhsNonContracting := [1]
  lhsBatch := []
  rhsBatch := []
  wf := dot_S100000x32_S32x20_S100000x20_1_0_0_1_n_n_wf
def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf
def scatter_S100000x20_S3200000x1_S3200000x20_1_0_0_1 : ScatterDims S100000x20 S3200000x1 S3200000x20 where
  updateWindowDims := [1]
  insertedWindowDims := [0]
  scatterDimsToOperandDims := [0]
  indexVectorDim := 1
  wf := scatter_S100000x20_S3200000x1_S3200000x20_1_0_0_1_wf

class Facts : Prop extends Facts₀ where

variable [Facts]
-- ==== Proof.OutRun.lean ====
/-
  The kernel program's run with its result array named.

  @main is six segments: three stretches of host operations and three pallas_calls. The buffer contents at each segment
  boundary are a fold from the launch memory (a stretch applies its operations; a call leaves its arrays at what its
  write-backs fold to and every other buffer as entered). Every weakly fair execution terminates with each unscoped buffer
  at the last boundary's contents; read at the result buffer, this names the result as the last call's output array.
-/
import proofs.«146932_j34840774705776_2_alg».proof.Proof.Gen.KernelIdeal.Frame

set_option maxRecDepth 16384

noncomputable section

namespace Cert.KernelIdeal.OutRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_out : θ_run defs (onTc (τ := τ) (main (F := F))) ⟨m, fun _ => 0, ρ⟩ (fun r => ∀ c : Dev nD,
      r.2.mem ((c.tc : Thread nD τ).loc main_v62) = W6 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v62 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.OutRun

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibMatProd.lean ====
/-
  General lemmas: the product of two matrices over the extended reals as one function read at an index.

  For an [a, k] array L and a [k, n] array R, `mm L R` is the [a, n] array whose entry (p, j) is the sum over q of
  L (p, q) · R (q, j).

  * `mm`, `mm_ix2`: the product and its entry;
  * `mm_congr`: entry (p, j) reads only row p of the left operand and column j of the right one, so a block of rows
    of the product is the product of the block of rows;
  * `hostDot_eq`: the host's plain product, whose dimension record contracts the left operand's columns against the
    right operand's rows, is `mm`;
  * `coreDot_eq`: a matrix-unit product into the zero accumulator, under the same record facts, is `mm`.
  Addition and multiplication on the extended reals are total, so none of this needs finiteness. Nothing here
  mentions a program: the extents are variables and the dimension records are hypotheses.
-/
import proofs.«146932_j34840774705776_2_alg».proof.Proof.LibAffine

noncomputable section

namespace Cert.LibMatProd

open Idealize.ShloMosaic Idealize.ShloMosaic.ValueIdx

variable {a k n : ℕ}

/-- The product of an [a, k] array by a [k, n] array: entry (p, j) is the sum over q of L (p, q) · R (q, j). -/
def mm (L : FVec Ideal ⟨2, ![a, k]⟩ .f32) (R : FVec Ideal ⟨2, ![k, n]⟩ .f32) : FVec Ideal ⟨2, ![a, n]⟩ .f32 :=
  fun i => ∑ q : Fin k, L (ix2 (i 0) q) * R (ix2 q (i 1))

theorem mm_ix2 (L : FVec Ideal ⟨2, ![a, k]⟩ .f32) (R : FVec Ideal ⟨2, ![k, n]⟩ .f32) (p : Fin a) (j : Fin n) :
    mm L R (ix2 p j) = ∑ q : Fin k, L (ix2 p q) * R (ix2 q j) := rfl

/-- Entry (p, j) of the product reads only row p of the left operand and column j of the right one. -/
theorem mm_congr {a' : ℕ} (L : FVec Ideal ⟨2, ![a, k]⟩ .f32) (R : FVec Ideal ⟨2, ![k, n]⟩ .f32)
    (L' : FVec Ideal ⟨2, ![a', k]⟩ .f32) (R' : FVec Ideal ⟨2, ![k, n]⟩ .f32) (p : Fin a) (p' : Fin a') (j : Fin n)
    (hl : ∀ q : Fin k, L (ix2 p q) = L' (ix2 p' q)) (hr : ∀ q : Fin k, R (ix2 q j) = R' (ix2 q j)) :
    mm L R (ix2 p j) = mm L' R' (ix2 p' j) := by
  rw [mm_ix2, mm_ix2]
  exact Finset.sum_congr rfl fun q _ => by rw [hl q, hr q]

/-- The host's plain product of an [a, k] by a [k, n] array is `mm`. -/
theorem hostDot_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ .f32) (R : FVec Ideal ⟨2, ![k, n]⟩ .f32) :
    Host.dotGeneral D prec L R = mm L R := by
  funext i
  obtain ⟨p, j, rfl⟩ : ∃ (p : Fin a) (j : Fin n), i = ix2 p j := ⟨i 0, i 1, eq_ix2 i⟩
  rw [Cert.LibAffine.hostDot_ix2 D hr hs hl0 hl1 hr0 hr1, mm_ix2]

/-- A matrix-unit product of an [a, k] by a [k, n] array into the zero accumulator is `mm`. -/
theorem coreDot_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ .f32) (R : FVec Ideal ⟨2, ![k, n]⟩ .f32) :
    FloatOps.matmul D prec L R (constant ⟨2, ![a, n]⟩ .f32 0x00000000#32) = mm L R := by
  funext i
  obtain ⟨p, j, rfl⟩ : ∃ (p : Fin a) (j : Fin n), i = ix2 p j := ⟨i 0, i 1, eq_ix2 i⟩
  rw [Cert.LibAffine.coreDot_ix2 D hr hs hl0 hl1 hr0 hr1, mm_ix2]

end Cert.LibMatProd

end
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.LibColumnRow.lean ====
/-
  One-column and one-row arrays, read at an index.

  A per-row quantity (one number per row of a matrix: a node's degree factor, a row's maximum, a row's sum) is
  held as a one-column array [a, 1] and used by laying it along every row of an [a, b] matrix; a per-column
  quantity (a bias) is held as a one-row array [1, n]. A vector of length a becomes such a column either by a
  reshape (the row-major position is kept, and position p of the column is entry p) or by a broadcast along
  axis 0; a vector of length n becomes a row by a reshape or by a broadcast along axis 1. The lemmas below read
  each of these at an index (p, c), and say that the reshape and the broadcast of a vector into a column, and into
  a row, are the same array.
-/
import Idealize.ShloMosaic.Lib.Pipeline.Value
import Idealize.ShloMosaic.Lib.ValueIdx
import Idealize.ShloMosaic.Lib.ValueLayout

namespace Cert.LibColumnRow

open Idealize.ShloMosaic Idealize.ShloMosaic.ValueIdx

variable {α : Type}

/-- A column [a, 1] laid along every row of an [a, b] array reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a reshaped into a column [a, 1] reads, at (p, u), the vector's entry p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector of length a broadcast along axis 0 into a column [a, 1] reads, at (p, u), the vector's entry p. -/
theorem broadcastInDim_a_a1_apply {a : ℕ} (hd : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] hd x (ix2 p u) = x (ix1 p) := by
  refine broadcastInDim_apply ![0] hd x (ix2 p u) (ix1 p) fun ax => ?_
  match ax with
  | ⟨0, _⟩ =>
    show p.val = if a = 1 then 0 else p.val
    split
    · have := p.isLt; omega
    · rfl

/-- The reshape of a vector into a column is its broadcast along axis 0 into that column. -/
theorem shapeCast_col_eq_broadcastInDim {a : ℕ} (x : (⟨1, ![a]⟩ : Shape).Idx → α)
    (h : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h = broadcastInDim ⟨2, ![a, 1]⟩ ![0] hd x := by
  funext i
  obtain ⟨p, u, rfl⟩ : ∃ (p : Fin a) (u : Fin 1), i = ix2 p u := ⟨i 0, i 1, eq_ix2 i⟩
  rw [shapeCast_a_a1_apply, broadcastInDim_a_a1_apply]

/-- A vector of length n broadcast along axis 1 into a row [1, n] reads, at (u, c), the vector's entry c. -/
theorem broadcastInDim_n_1n_apply {n : ℕ} (hd : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] hd x (ix2 u c) = x (ix1 c) := by
  refine broadcastInDim_apply ![1] hd x (ix2 u c) (ix1 c) fun ax => ?_
  match ax with
  | ⟨0, _⟩ =>
    show c.val = if n = 1 then 0 else c.val
    split
    · have := c.isLt; omega
    · rfl

/-- The reshape of a vector into a row is its broadcast along axis 1 into that row. -/
theorem shapeCast_row_eq_broadcastInDim {n : ℕ} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, c, rfl⟩ : ∃ (u : Fin 1) (c : Fin n), i = ix2 u c := ⟨i 0, i 1, eq_ix2 i⟩
  rw [shapeCast_a_1a_apply, broadcastInDim_n_1n_apply]

end Cert.LibColumnRow
-- ==== Proof.LibGcnLayers.lean ====
/-
  General lemmas: the dense stages of a two-layer graph convolution with self-loops, over the extended reals, as whole-array
  functions of their operands read at an index.

  * `relu`: the rectifier max(x, 0), entry by entry, in the vector unit's spelling (maximum with a splat zero) and the
    host's (maximum with a rank-0 zero broadcast);
  * `selfLoop agg h dcol b`: entry (p, j) is agg (p, j) + h (p, j) · dcol (p, 0) + b (0, j) — a node's aggregated messages,
    plus its own transformed features weighted by its squared inverse-root degree (a one-column array), plus a bias row;
  * `encode x cnn fw fb cw cb wa wb`: relu(x · fw + fb) · wa + relu(cnn · cw + cb) · wb — two dense encoders, rectified, each
    multiplied by its half of a stacked weight;
  * `fin1 agg h dcol b w`: relu(selfLoop agg h dcol b) · w.
  For each, the entry (p, j) reads only row p of the row-indexed operands (`*_congr`: a block of rows of the result is the
  function of the block of rows), and the vector unit's chain of matrix-unit products into zero accumulators, row and
  column broadcasts, additions and maxima is the function (`core*_eq`). Sums and products on the extended reals are total,
  so none of this needs finiteness. Nothing here mentions a program: extents are variables, dimension records hypotheses.
-/
import Idealize.ShloMosaic.Lib.ValueLayout
import Idealize.ShloMosaic.Lib.ValueIdx
import Idealize.ShloMosaic.Lib.Pipeline.Value
import Idealize.ShloMosaic.PureOps.Ideal.Laws
import proofs.«146932_j34840774705776_2_alg».proof.Proof.LibAffine
import proofs.«146932_j34840774705776_2_alg».proof.Proof.LibMatProd
import proofs.«146932_j34840774705776_2_alg».proof.Proof.LibPlainDot
import proofs.«146932_j34840774705776_2_alg».proof.Proof.LibColumnRow

noncomputable section

namespace Cert.LibGcnLayers

open Idealize.ShloMosaic Idealize.ShloMosaic.ValueIdx
open Cert.LibAffine Cert.LibMatProd

/-- The six coordinate facts of a plain [a, k] × [k, n] product's dimension record: one contracted axis of extent k, the
    left operand read at (i 0, q 0), the right one at (q 0, i 1). -/
structure PlainDot {a k n : ℕ} (D : DotDims ⟨2, ![a, k]⟩ ⟨2, ![k, n]⟩ ⟨2, ![a, n]⟩) : Prop where
  hr : D.contr.rank = 1
  hs : D.contr.size ⟨0, by omega⟩ = k
  hl0 : ∀ i q, (D.lhsIdx i q 0).val = (i 0).val
  hl1 : ∀ i q, (D.lhsIdx i q 1).val = (q ⟨0, by omega⟩).val
  hr0 : ∀ i q, (D.rhsIdx i q 0).val = (q ⟨0, by omega⟩).val
  hr1 : ∀ i q, (D.rhsIdx i q 1).val = (i 1).val

/-- Any record with the axis lists of a plain product has the six facts. -/
theorem PlainDot.of_lists {a k n : ℕ} (D : DotDims ⟨2, ![a, k]⟩ ⟨2, ![k, n]⟩ ⟨2, ![a, n]⟩)
    (hlc : D.lhsContracting = [1]) (hrc : D.rhsContracting = [0]) (hln : D.lhsNonContracting = [0])
    (hrn : D.rhsNonContracting = [1]) (hlb : D.lhsBatch = []) (hrb : D.rhsBatch = []) : PlainDot D :=
  ⟨LibPlainDot.contr_rank D hlc, LibPlainDot.contr_size D hlc, LibPlainDot.lhs_row D hlb hln, LibPlainDot.lhs_col D hlc,
    LibPlainDot.rhs_row D hlc hrc, LibPlainDot.rhs_col D hlb hln hrb hrn⟩

/-! ## The rectifier -/

/-- max(x, 0) entry by entry; the zero is kept as the float word both programs write. -/
def relu {S : Shape} (x : FVec Ideal S .f32) : FVec Ideal S .f32 := fun i => max (x i) (Ideal.ofBits .f32 0x00000000#32)

theorem relu_apply {S : Shape} (x : FVec Ideal S .f32) (i : S.Idx) : relu x i = max (x i) (Ideal.ofBits .f32 0x00000000#32) := rfl

/-- The vector unit's rectifier: the maximum with a splat zero. -/
theorem coreRelu_eq {S : Shape} (x : FVec Ideal S .f32) :
    maximumf x (broadcast S (Scalar.ofBits (F := Ideal) .f32 0x00000000#32)) = relu x := rfl

/-! ## The three stages -/

variable {a d n : ℕ}

/-- agg + h · dcol + b, the one-column array laid along the rows and the one-row array along the columns. -/
def selfLoop (agg h : FVec Ideal ⟨2, ![a, n]⟩ .f32) (dcol : FVec Ideal ⟨2, ![a, 1]⟩ .f32) (b : FVec Ideal ⟨2, ![1, n]⟩ .f32) :
    FVec Ideal ⟨2, ![a, n]⟩ .f32 :=
  fun i => agg i + h i * dcol (ix2 (i 0) (0 : Fin 1)) + b (ix2 (0 : Fin 1) (i 1))

theorem selfLoop_ix2 (agg h : FVec Ideal ⟨2, ![a, n]⟩ .f32) (dcol : FVec Ideal ⟨2, ![a, 1]⟩ .f32) (b : FVec Ideal ⟨2, ![1, n]⟩ .f32)
    (p : Fin a) (j : Fin n) :
    selfLoop agg h dcol b (ix2 p j) = agg (ix2 p j) + h (ix2 p j) * dcol (ix2 p (0 : Fin 1)) + b (ix2 (0 : Fin 1) j) := rfl

/-- Entry (p, j) of `selfLoop` reads entry (p, j) of the two matrices, entry p of the column and entry j of the row. -/
theorem selfLoop_congr {a' : ℕ} (AGG H : FVec Ideal ⟨2, ![a, n]⟩ .f32) (DCOL : FVec Ideal ⟨2, ![a, 1]⟩ .f32) (B : FVec Ideal ⟨2, ![1, n]⟩ .f32)
    (agg h : FVec Ideal ⟨2, ![a', n]⟩ .f32) (dcol : FVec Ideal ⟨2, ![a', 1]⟩ .f32) (b : FVec Ideal ⟨2, ![1, n]⟩ .f32)
    (p : Fin a') (p' : Fin a) (j : Fin n)
    (hagg : agg (ix2 p j) = AGG (ix2 p' j)) (hh : h (ix2 p j) = H (ix2 p' j))
    (hd : dcol (ix2 p (0 : Fin 1)) = DCOL (ix2 p' (0 : Fin 1))) (hb : b (ix2 (0 : Fin 1) j) = B (ix2 (0 : Fin 1) j)) :
    selfLoop agg h dcol b (ix2 p j) = selfLoop AGG H DCOL B (ix2 p' j) := by
  rw [selfLoop_ix2, selfLoop_ix2, hagg, hh, hd, hb]

/-- The vector unit's chain for `selfLoop`: the column broadcast over the columns, the row over the rows. -/
theorem coreSelfLoop_eq (hc : (⟨2, ![a, 1]⟩ : Shape).Broadcasts ⟨2, ![a, n]⟩) (hb : (⟨2, ![1, n]⟩ : Shape).Broadcasts ⟨2, ![a, n]⟩)
    (agg h : FVec Ideal ⟨2, ![a, n]⟩ .f32) (dcol : FVec Ideal ⟨2, ![a, 1]⟩ .f32) (b : FVec Ideal ⟨2, ![1, n]⟩ .f32) :
    addf (addf agg (mulf h (broadcastTo ⟨2, ![a, n]⟩ dcol hc))) (broadcastTo ⟨2, ![a, n]⟩ b hb) = selfLoop agg h dcol b := by
  funext i
  obtain ⟨p, j, rfl⟩ : ∃ (p : Fin a) (j : Fin n), i = ix2 p j := ⟨i 0, i 1, eq_ix2 i⟩
  rw [addf_apply, addf_apply, mulf_apply, LibColumnRow.broadcastTo_a1_ab_apply, broadcastTo_1b_ab_apply, selfLoop_ix2]

variable {kx kc : ℕ}

/-- relu(x · fw + fb) · wa + relu(cnn · cw + cb) · wb. -/
def encode (x : FVec Ideal ⟨2, ![a, kx]⟩ .f32) (cnn : FVec Ideal ⟨2, ![a, kc]⟩ .f32) (fw : FVec Ideal ⟨2, ![kx, d]⟩ .f32)
    (fb : FVec Ideal ⟨2, ![1, d]⟩ .f32) (cw : FVec Ideal ⟨2, ![kc, d]⟩ .f32) (cb : FVec Ideal ⟨2, ![1, d]⟩ .f32)
    (wa wb : FVec Ideal ⟨2, ![d, n]⟩ .f32) : FVec Ideal ⟨2, ![a, n]⟩ .f32 :=
  addf (mm (relu (affine x fw fb)) wa) (mm (relu (affine cnn cw cb)) wb)

/-- A rectified dense layer times a weight, at (p, j), reads row p of the layer's matrix only. -/
theorem mm_relu_affine_congr {a' k : ℕ} (X : FVec Ideal ⟨2, ![a, k]⟩ .f32) (FW : FVec Ideal ⟨2, ![k, d]⟩ .f32)
    (FB : FVec Ideal ⟨2, ![1, d]⟩ .f32) (WA : FVec Ideal ⟨2, ![d, n]⟩ .f32)
    (x : FVec Ideal ⟨2, ![a', k]⟩ .f32) (fw : FVec Ideal ⟨2, ![k, d]⟩ .f32) (fb : FVec Ideal ⟨2, ![1, d]⟩ .f32)
    (wa : FVec Ideal ⟨2, ![d, n]⟩ .f32) (p : Fin a') (p' : Fin a) (j : Fin n)
    (hx : ∀ r : Fin k, x (ix2 p r) = X (ix2 p' r)) (hfw : ∀ (r : Fin k) (q : Fin d), fw (ix2 r q) = FW (ix2 r q))
    (hfb : ∀ q : Fin d, fb (ix2 (0 : Fin 1) q) = FB (ix2 (0 : Fin 1) q)) (hwa : ∀ q : Fin d, wa (ix2 q j) = WA (ix2 q j)) :
    mm (relu (affine x fw fb)) wa (ix2 p j) = mm (relu (affine X FW FB)) WA (ix2 p' j) := by
  rw [mm_ix2, mm_ix2]
  refine Finset.sum_congr rfl fun q _ => ?_
  rw [hwa q, relu_apply, relu_apply, affine_ix2, affine_ix2,
    affineAt_congr X FW FB x fw fb p p' q hx (fun r => hfw r q) (hfb q)]

/-- Entry (p, j) of `encode` reads only row p of the two feature matrices. -/
theorem encode_congr {a' : ℕ} (X : FVec Ideal ⟨2, ![a, kx]⟩ .f32) (CNN : FVec Ideal ⟨2, ![a, kc]⟩ .f32) (FW : FVec Ideal ⟨2, ![kx, d]⟩ .f32)
    (FB : FVec Ideal ⟨2, ![1, d]⟩ .f32) (CW : FVec Ideal ⟨2, ![kc, d]⟩ .f32) (CB : FVec Ideal ⟨2, ![1, d]⟩ .f32)
    (WA WB : FVec Ideal ⟨2, ![d, n]⟩ .f32)
    (x : FVec Ideal ⟨2, ![a', kx]⟩ .f32) (cnn : FVec Ideal ⟨2, ![a', kc]⟩ .f32) (fw : FVec Ideal ⟨2, ![kx, d]⟩ .f32)
    (fb : FVec Ideal ⟨2, ![1, d]⟩ .f32) (cw : FVec Ideal ⟨2, ![kc, d]⟩ .f32) (cb : FVec Ideal ⟨2, ![1, d]⟩ .f32)
    (wa wb : FVec Ideal ⟨2, ![d, n]⟩ .f32) (p : Fin a') (p' : Fin a) (j : Fin n)
    (hx : ∀ r : Fin kx, x (ix2 p r) = X (ix2 p' r)) (hc : ∀ r : Fin kc, cnn (ix2 p r) = CNN (ix2 p' r))
    (hfw : ∀ (r : Fin kx) (q : Fin d), fw (ix2 r q) = FW (ix2 r q)) (hfb : ∀ q : Fin d, fb (ix2 (0 : Fin 1) q) = FB (ix2 (0 : Fin 1) q))
    (hcw : ∀ (r : Fin kc) (q : Fin d), cw (ix2 r q) = CW (ix2 r q)) (hcb : ∀ q : Fin d, cb (ix2 (0 : Fin 1) q) = CB (ix2 (0 : Fin 1) q))
    (hwa : ∀ q : Fin d, wa (ix2 q j) = WA (ix2 q j)) (hwb : ∀ q : Fin d, wb (ix2 q j) = WB (ix2 q j)) :
    encode x cnn fw fb cw cb wa wb (ix2 p j) = encode X CNN FW FB CW CB WA WB (ix2 p' j) := by
  unfold encode
  rw [addf_apply, addf_apply, mm_relu_affine_congr X FW FB WA x fw fb wa p p' j hx hfw hfb hwa,
    mm_relu_affine_congr CNN CW CB WB cnn cw cb wb p p' j hc hcw hcb hwb]

/-- The vector unit's chain for `encode`: two products into zero accumulators each plus its bias row, rectified, each
    times its weight into a zero accumulator, added. -/
theorem coreEncode_eq (D0 : DotDims ⟨2, ![a, kx]⟩ ⟨2, ![kx, d]⟩ ⟨2, ![a, d]⟩) (P0 : PlainDot D0)
    (D1 : DotDims ⟨2, ![a, kc]⟩ ⟨2, ![kc, d]⟩ ⟨2, ![a, d]⟩) (P1 : PlainDot D1)
    (D2 : DotDims ⟨2, ![a, d]⟩ ⟨2, ![d, n]⟩ ⟨2, ![a, n]⟩) (P2 : PlainDot D2)
    (hb : (⟨2, ![1, d]⟩ : Shape).Broadcasts ⟨2, ![a, d]⟩) (prec : Option ContractPrecision)
    (x : FVec Ideal ⟨2, ![a, kx]⟩ .f32) (cnn : FVec Ideal ⟨2, ![a, kc]⟩ .f32) (fw : FVec Ideal ⟨2, ![kx, d]⟩ .f32)
    (fb : FVec Ideal ⟨2, ![1, d]⟩ .f32) (cw : FVec Ideal ⟨2, ![kc, d]⟩ .f32) (cb : FVec Ideal ⟨2, ![1, d]⟩ .f32)
    (wa wb : FVec Ideal ⟨2, ![d, n]⟩ .f32) :
    addf
      (FloatOps.matmul D2 prec
        (maximumf (addf (FloatOps.matmul D0 prec x fw (constant ⟨2, ![a, d]⟩ .f32 0x00000000#32)) (broadcastTo ⟨2, ![a, d]⟩ fb hb))
          (broadcast ⟨2, ![a, d]⟩ (Scalar.ofBits (F := Ideal) .f32 0x00000000#32)))
        wa (constant ⟨2, ![a, n]⟩ .f32 0x00000000#32))
      (FloatOps.matmul D2 prec
        (maximumf (addf (FloatOps.matmul D1 prec cnn cw (constant ⟨2, ![a, d]⟩ .f32 0x00000000#32)) (broadcastTo ⟨2, ![a, d]⟩ cb hb))
          (broadcast ⟨2, ![a, d]⟩ (Scalar.ofBits (F := Ideal) .f32 0x00000000#32)))
        wb (constant ⟨2, ![a, n]⟩ .f32 0x00000000#32))
      = encode x cnn fw fb cw cb wa wb := by
  rw [coreAffine_eq D0 P0.hr P0.hs P0.hl0 P0.hl1 P0.hr0 P0.hr1 hb prec x fw fb,
    coreAffine_eq D1 P1.hr P1.hs P1.hl0 P1.hl1 P1.hr0 P1.hr1 hb prec cnn cw cb, coreRelu_eq, coreRelu_eq,
    coreDot_eq D2 P2.hr P2.hs P2.hl0 P2.hl1 P2.hr0 P2.hr1, coreDot_eq D2 P2.hr P2.hs P2.hl0 P2.hl1 P2.hr0 P2.hr1]
  rfl

/-- relu(selfLoop agg h dcol b) · w. -/
def fin1 (agg h : FVec Ideal ⟨2, ![a, d]⟩ .f32) (dcol : FVec Ideal ⟨2, ![a, 1]⟩ .f32) (b : FVec Ideal ⟨2, ![1, d]⟩ .f32)
    (w : FVec Ideal ⟨2, ![d, n]⟩ .f32) : FVec Ideal ⟨2, ![a, n]⟩ .f32 :=
  mm (relu (selfLoop agg h dcol b)) w

/-- Entry (p, j) of `fin1` reads only row p of the two matrices and entry p of the column. -/
theorem fin1_congr {a' : ℕ} (AGG H : FVec Ideal ⟨2, ![a, d]⟩ .f32) (DCOL : FVec Ideal ⟨2, ![a, 1]⟩ .f32) (B : FVec Ideal ⟨2, ![1, d]⟩ .f32)
    (W : FVec Ideal ⟨2, ![d, n]⟩ .f32)
    (agg h : FVec Ideal ⟨2, ![a', d]⟩ .f32) (dcol : FVec Ideal ⟨2, ![a', 1]⟩ .f32) (b : FVec Ideal ⟨2, ![1, d]⟩ .f32)
    (w : FVec Ideal ⟨2, ![d, n]⟩ .f32) (p : Fin a') (p' : Fin a) (j : Fin n)
    (hagg : ∀ q : Fin d, agg (ix2 p q) = AGG (ix2 p' q)) (hh : ∀ q : Fin d, h (ix2 p q) = H (ix2 p' q))
    (hd : dcol (ix2 p (0 : Fin 1)) = DCOL (ix2 p' (0 : Fin 1))) (hb : ∀ q : Fin d, b (ix2 (0 : Fin 1) q) = B (ix2 (0 : Fin 1) q))
    (hw : ∀ q : Fin d, w (ix2 q j) = W (ix2 q j)) :
    fin1 agg h dcol b w (ix2 p j) = fin1 AGG H DCOL B W (ix2 p' j) := by
  unfold fin1
  rw [mm_ix2, mm_ix2]
  refine Finset.sum_congr rfl fun q _ => ?_
  rw [hw q, relu_apply, relu_apply, selfLoop_congr AGG H DCOL B agg h dcol b p p' q (hagg q) (hh q) hd (hb q)]

/-- The vector unit's chain for `fin1`. -/
theorem coreFin1_eq (D : DotDims ⟨2, ![a, d]⟩ ⟨2, ![d, n]⟩ ⟨2, ![a, n]⟩) (P : PlainDot D)
    (hc : (⟨2, ![a, 1]⟩ : Shape).Broadcasts ⟨2, ![a, d]⟩) (hb : (⟨2, ![1, d]⟩ : Shape).Broadcasts ⟨2, ![a, d]⟩)
    (prec : Option ContractPrecision)
    (agg h : FVec Ideal ⟨2, ![a, d]⟩ .f32) (dcol : FVec Ideal ⟨2, ![a, 1]⟩ .f32) (b : FVec Ideal ⟨2, ![1, d]⟩ .f32)
    (w : FVec Ideal ⟨2, ![d, n]⟩ .f32) :
    FloatOps.matmul D prec
      (maximumf (addf (addf agg (mulf h (broadcastTo ⟨2, ![a, d]⟩ dcol hc))) (broadcastTo ⟨2, ![a, d]⟩ b hb))
        (broadcast ⟨2, ![a, d]⟩ (Scalar.ofBits (F := Ideal) .f32 0x00000000#32)))
      w (constant ⟨2, ![a, n]⟩ .f32 0x00000000#32)
      = fin1 agg h dcol b w := by
  rw [coreSelfLoop_eq hc hb, coreRelu_eq, coreDot_eq D P.hr P.hs P.hl0 P.hl1 P.hr0 P.hr1]
  rfl

end Cert.LibGcnLayers

end
-- ==== Proof.Spec.lean ====
/-
  The function both programs compute, stated once over the reference's own index and degree stages.

  With x, cnn the node features, (src, dst) the edge list, and per node i the factor dinv i = (1 + #{edges into i})^(-1/2):
    H   = relu(x · fc_W + fc_b) · W1[0:32] + relu(cnn · cnn_W + cnn_b) · W1[32:64]          (`H`)
    A1  = for each node, the sum over its incoming edges e of H[src e] · dinv[src e] · dinv[dst e]   (`edgeSum32 H`)
    H2  = relu(A1 + H · dinv² + b1) · W2                                                    (`H2`)
    A2  = the same edge sum of H2                                                            (`edgeSum20 H2`)
    OUT = A2 + H2 · dinv² + b2                                                               (`OUT`)
  The edge sums (a gather by source node, a scaling by the edge's weight, a scatter-add by target node) are carried as
  opaque whole-array functions of the array they gather from: both programs apply the same host operations there, so they
  are never opened. The index, degree and weight stages are the reference's own (`val_main_v…` of the edge list).
-/
import proofs.«146932_j34840774705776_2_alg».proof.Proof.Gen.ReferenceIdeal.Read
import proofs.«146932_j34840774705776_2_alg».proof.Proof.LibGcnLayers

noncomputable section

namespace Cert.GcnSpec

open Cert.ReferenceIdeal Cert.ReferenceIdeal.Read Idealize.ShloMosaic Idealize.ShloMosaic.ValueIdx Cert.LibGcnLayers

/-- Rows 0 … 31 of the stacked [64, 32] weight. -/
def top (w : FVec Ideal ⟨2, ![64, 32]⟩ .f32) : FVec Ideal ⟨2, ![32, 32]⟩ .f32 :=
  fun i => w (ix2 (⟨(i 0).val, by have := idx2_lt0 i; omega⟩ : Fin 64) (i 1))

/-- Rows 32 … 63 of the stacked [64, 32] weight. -/
def bot (w : FVec Ideal ⟨2, ![64, 32]⟩ .f32) : FVec Ideal ⟨2, ![32, 32]⟩ .f32 :=
  fun i => w (ix2 (⟨32 + (i 0).val, by have := idx2_lt0 i; omega⟩ : Fin 64) (i 1))

/-- The encoder's output times the first layer's weight. -/
def H (x0 : FVec Ideal ⟨2, ![100000, 32]⟩ .f32) (x1 : FVec Ideal ⟨2, ![100000, 128]⟩ .f32) (x3 : FVec Ideal ⟨2, ![32, 32]⟩ .f32)
    (x4 : FVec Ideal ⟨1, ![32]⟩ .f32) (x5 : FVec Ideal ⟨2, ![128, 32]⟩ .f32) (x6 : FVec Ideal ⟨1, ![32]⟩ .f32)
    (x7 : FVec Ideal ⟨2, ![64, 32]⟩ .f32) : FVec Ideal ⟨2, ![100000, 32]⟩ .f32 :=
  encode x0 x1 x3 (val_main_v5 (F := Ideal) x4) x5 (val_main_v9 (F := Ideal) x6) (top x7) (bot x7)

/-- The weighted sum over incoming edges of the rows of a [100000, 32] array. -/
def edgeSum32 (h : FVec Ideal ⟨2, ![100000, 32]⟩ .f32) (x2 : (⟨S2x3200000, .i32⟩ : BufTy).Contents (Elt Ideal)) :
    FVec Ideal ⟨2, ![100000, 32]⟩ .f32 :=
  Host.scatterAdd scatter_S100000x32_S3200000x1_S3200000x32_1_0_0_1 (val_main_v47 (F := Ideal)) (val_main_v48 (F := Ideal) x2)
    (mulf (Host.gather gather_S100000x32_S3200000x1_S3200000x32_1_0_n_n_0_1_132 h (val_main_v42 (F := Ideal) x2)) (val_main_v45 (F := Ideal) x2))

/-- The weighted sum over incoming edges of the rows of a [100000, 20] array. -/
def edgeSum20 (h : FVec Ideal ⟨2, ![100000, 20]⟩ .f32) (x2 : (⟨S2x3200000, .i32⟩ : BufTy).Contents (Elt Ideal)) :
    FVec Ideal ⟨2, ![100000, 20]⟩ .f32 :=
  Host.scatterAdd scatter_S100000x20_S3200000x1_S3200000x20_1_0_0_1 (val_main_v92 (F := Ideal)) (val_main_v93 (F := Ideal) x2)
    (mulf (Host.gather gather_S100000x20_S3200000x1_S3200000x20_1_0_n_n_0_1_120 h (val_main_v87 (F := Ideal) x2)) (val_main_v90 (F := Ideal) x2))

/-- The first convolution, rectified, times the second layer's weight. -/
def H2 (x0 : FVec Ideal ⟨2, ![100000, 32]⟩ .f32) (x1 : FVec Ideal ⟨2, ![100000, 128]⟩ .f32)
    (x2 : (⟨S2x3200000, .i32⟩ : BufTy).Contents (Elt Ideal)) (x3 : FVec Ideal ⟨2, ![32, 32]⟩ .f32)
    (x4 : FVec Ideal ⟨1, ![32]⟩ .f32) (x5 : FVec Ideal ⟨2, ![128, 32]⟩ .f32) (x6 : FVec Ideal ⟨1, ![32]⟩ .f32)
    (x7 : FVec Ideal ⟨2, ![64, 32]⟩ .f32) (x8 : FVec Ideal ⟨1, ![32]⟩ .f32) (x9 : FVec Ideal ⟨2, ![32, 20]⟩ .f32) :
    FVec Ideal ⟨2, ![100000, 20]⟩ .f32 :=
  fin1 (edgeSum32 (H x0 x1 x3 x4 x5 x6 x7) x2) (H x0 x1 x3 x4 x5 x6 x7) (val_main_v51 (F := Ideal) x2) (val_main_v55 (F := Ideal) x8) x9

/-- The second convolution: the result. -/
def OUT (x0 : FVec Ideal ⟨2, ![100000, 32]⟩ .f32) (x1 : FVec Ideal ⟨2, ![100000, 128]⟩ .f32)
    (x2 : (⟨S2x3200000, .i32⟩ : BufTy).Contents (Elt Ideal)) (x3 : FVec Ideal ⟨2, ![32, 32]⟩ .f32)
    (x4 : FVec Ideal ⟨1, ![32]⟩ .f32) (x5 : FVec Ideal ⟨2, ![128, 32]⟩ .f32) (x6 : FVec Ideal ⟨1, ![32]⟩ .f32)
    (x7 : FVec Ideal ⟨2, ![64, 32]⟩ .f32) (x8 : FVec Ideal ⟨1, ![32]⟩ .f32) (x9 : FVec Ideal ⟨2, ![32, 20]⟩ .f32)
    (x10 : FVec Ideal ⟨1, ![20]⟩ .f32) : FVec Ideal ⟨2, ![100000, 20]⟩ .f32 :=
  selfLoop (edgeSum20 (H2 x0 x1 x2 x3 x4 x5 x6 x7 x8 x9) x2) (H2 x0 x1 x2 x3 x4 x5 x6 x7 x8 x9) (val_main_v96 (F := Ideal) x2)
    (val_main_v100 (F := Ideal) x10)

end Cert.GcnSpec

end
-- ==== Proof.RegionEncode.lean ====
/-
  The first pallas_call's result array as one function of the arrays it is entered with.

  The call runs over 20 grid points; at point t every row-indexed window (the two feature matrices and the result) holds rows
  5000·t … 5000·t + 4999 of its array, and the six weight and bias windows hold their whole arrays. The body stores
  `encode` of its blocks (the vector unit's chain is that function), `encode`'s entry (p, j) reads only row p of the
  feature matrices, so point t writes back rows 5000·t … of `encode` of the whole arrays; the 20 blocks cover the
  [100000, 32] result.
-/
import proofs.«146932_j34840774705776_2_alg».proof.Proof.Gen.KernelIdeal.Frame
import proofs.«146932_j34840774705776_2_alg».proof.Proof.LibGcnLayers
import Idealize.ShloMosaic.Lib.Pipeline.Value

noncomputable section

namespace Cert.KernelIdeal.Encode

open Cert.KernelIdeal Cert.KernelIdeal.Gen Idealize.ShloMosaic Idealize.ShloMosaic.TcCoe Idealize.SL.Sem
open Idealize.ShloMosaic.ValueIdx Cert.LibGcnLayers
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem dot_32_32 : PlainDot dot_S5000x32_S32x32_S5000x32_1_0_0_1_n_n := PlainDot.of_lists _ rfl rfl rfl rfl rfl rfl
theorem dot_128_32 : PlainDot dot_S5000x128_S128x32_S5000x32_1_0_0_1_n_n := PlainDot.of_lists _ rfl rfl rfl rfl rfl rfl

/-- The body's stored value is `encode` of its loaded blocks. -/
theorem pay_eq (x0 : Vec Ideal S5000x32 .f32) (x1 : Vec Ideal S5000x128 .f32) (x2 : Vec Ideal S32x32 .f32) (x3 : Vec Ideal S1x32 .f32)
    (x4 : Vec Ideal S128x32 .f32) (x5 : Vec Ideal S1x32 .f32) (x6 x7 : Vec Ideal S32x32 .f32) :
    k0_pay1 x0 x2 x3 x1 x4 x5 x6 x7 = encode x0 x1 x2 x3 x4 x5 x6 x7 := by
  unfold k0_pay1
  simp only [shapeCast_self]
  exact coreEncode_eq _ dot_32_32 _ dot_128_32 _ dot_32_32 _ none x0 x1 x2 x3 x4 x5 x6 x7

/-- Where each window's block sits at point t: the row-indexed windows at block row t, the others at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Row p of the first feature window's block at point t is row 5000·t + p of its array. -/
theorem blk_0 (c : Dev nD) (t : Fin cfg0.N) (p : Fin 5000) (q : Fin 32) (k : Fin 100000) (hk : k.val = t.val * 5000 + p.val) :
    (iblk0 V c 0 t : Vec Ideal S5000x32 .f32) (ix2 p q) = (V c main_arg0 : S100000x32.Idx → Ideal .f32) (ix2 k q) := by
  unfold iblk0
  rw [View.read_apply]
  show V c main_arg0 _ = V c main_arg0 _
  refine congrArg (V c main_arg0) (funext fun a => Fin.ext ?_)
  obtain ⟨e0, e1, -⟩ := idx_facts t
  match a with
  | ⟨0, _⟩ => show win0_0.index t (0 : Fin 2) * 5000 + 1 * p.val = k.val; rw [e0, hk]; omega
  | ⟨1, _⟩ => show win0_0.index t (1 : Fin 2) * 32 + 1 * q.val = q.val; rw [e1]; omega

/-- Row p of the second feature window's block at point t is row 5000·t + p of its array. -/
theorem blk_1 (c : Dev nD) (t : Fin cfg0.N) (p : Fin 5000) (q : Fin 128) (k : Fin 100000) (hk : k.val = t.val * 5000 + p.val) :
    (iblk0 V c 1 t : Vec Ideal S5000x128 .f32) (ix2 p q) = (V c main_arg1 : S100000x128.Idx → Ideal .f32) (ix2 k q) := by
  unfold iblk0
  rw [View.read_apply]
  show V c main_arg1 _ = V c main_arg1 _
  refine congrArg (V c main_arg1) (funext fun a => Fin.ext ?_)
  obtain ⟨-, -, e0, e1, -⟩ := idx_facts t
  match a with
  | ⟨0, _⟩ => show win0_1.index t (0 : Fin 2) * 5000 + 1 * p.val = k.val; rw [e0, hk]; omega
  | ⟨1, _⟩ => show win0_1.index t (1 : Fin 2) * 128 + 1 * q.val = q.val; rw [e1]; omega

/-- The first encoder's weight window holds its whole array at every point. -/
theorem blk_2 (c : Dev nD) (t : Fin cfg0.N) (p : Fin 32) (q : Fin 32) :
    (iblk0 V c 2 t : Vec Ideal S32x32 .f32) (ix2 p q) = (V c main_arg3 : S32x32.Idx → Ideal .f32) (ix2 p q) := by
  unfold iblk0
  rw [View.read_apply]
  show V c main_arg3 _ = V c main_arg3 _
  refine congrArg (V c main_arg3) (funext fun a => Fin.ext ?_)
  obtain ⟨-, -, -, -, e0, e1, -⟩ := idx_facts t
  match a with
  | ⟨0, _⟩ => show win0_2.index t (0 : Fin 2) * 32 + 1 * p.val = p.val; rw [e0]; omega
  | ⟨1, _⟩ => show win0_2.index t (1 : Fin 2) * 32 + 1 * q.val = q.val; rw [e1]; omega

/-- The first encoder's bias window holds its whole row at every point. -/
theorem blk_3 (c : Dev nD) (t : Fin cfg0.N) (p : Fin 1) (q : Fin 32) :
    (iblk0 V c 3 t : Vec Ideal S1x32 .f32) (ix2 p q) = (V c main_v30 : S1x32.Idx → Ideal .f32) (ix2 p q) := by
  unfold iblk0
  rw [View.read_apply]
  show V c main_v30 _ = V c main_v30 _
  refine congrArg (V c main_v30) (funext fun a => Fin.ext ?_)
  obtain ⟨-, -, -, -, -, -, e0, e1, -⟩ := idx_facts t
  match a with
  | ⟨0, _⟩ => show win0_3.index t (0 : Fin 2) * 1 + 1 * p.val = p.val; rw [e0]; omega
  | ⟨1, _⟩ => show win0_3.index t (1 : Fin 2) * 32 + 1 * q.val = q.val; rw [e1]; omega

/-- The second encoder's weight window holds its whole array at every point. -/
theorem blk_4 (c : Dev nD) (t : Fin cfg0.N) (p : Fin 128) (q : Fin 32) :
    (iblk0 V c 4 t : Vec Ideal S128x32 .f32) (ix2 p q) = (V c main_arg5 : S128x32.Idx → Ideal .f32) (ix2 p q) := by
  unfold iblk0
  rw [View.read_apply]
  show V c main_arg5 _ = V c main_arg5 _
  refine congrArg (V c main_arg5) (funext fun a => Fin.ext ?_)
  obtain ⟨-, -, -, -, -, -, -, -, e0, e1, -⟩ := idx_facts t
  match a with
  | ⟨0, _⟩ => show win0_4.index t (0 : Fin 2) * 128 + 1 * p.val = p.val; rw [e0]; omega
  | ⟨1, _⟩ => show win0_4.index t (1 : Fin 2) * 32 + 1 * q.val = q.val; rw [e1]; omega

/-- The second encoder's bias window holds its whole row at every point. -/
theorem blk_5 (c : Dev nD) (t : Fin cfg0.N) (p : Fin 1) (q : Fin 32) :
    (iblk0 V c 5 t : Vec Ideal S1x32 .f32) (ix2 p q) = (V c main_v31 : S1x32.Idx → Ideal .f32) (ix2 p q) := by
  unfold iblk0
  rw [View.read_apply]
  show V c main_v31 _ = V c main_v31 _
  refine congrArg (V c main_v31) (funext fun a => Fin.ext ?_)
  obtain ⟨-, -, -, -, -, -, -, -, -, -, e0, e1, -⟩ := idx_facts t
  match a with
  | ⟨0, _⟩ => show win0_5.index t (0 : Fin 2) * 1 + 1 * p.val = p.val; rw [e0]; omega
  | ⟨1, _⟩ => show win0_5.index t (1 : Fin 2) * 32 + 1 * q.val = q.val; rw [e1]; omega

/-- The upper half of the stacked weight: its window holds the whole array at every point. -/
theorem blk_6 (c : Dev nD) (t : Fin cfg0.N) (p : Fin 32) (q : Fin 32) :
    (iblk0 V c 6 t : Vec Ideal S32x32 .f32) (ix2 p q) = (V c main_v28 : S32x32.Idx → Ideal .f32) (ix2 p q) := by
  unfold iblk0
  rw [View.read_apply]
  show V c main_v28 _ = V c main_v28 _
  refine congrArg (V c main_v28) (funext fun a => Fin.ext ?_)
  obtain ⟨-, -, -, -, -, -, -, -, -, -, -, -, e0, e1, -⟩ := idx_facts t
  match a with
  | ⟨0, _⟩ => show win0_6.index t (0 : Fin 2) * 32 + 1 * p.val = p.val; rw [e0]; omega
  | ⟨1, _⟩ => show win0_6.index t (1 : Fin 2) * 32 + 1 * q.val = q.val; rw [e1]; omega

/-- The lower half of the stacked weight: its window holds the whole array at every point. -/
theorem blk_7 (c : Dev nD) (t : Fin cfg0.N) (p : Fin 32) (q : Fin 32) :
    (iblk0 V c 7 t : Vec Ideal S32x32 .f32) (ix2 p q) = (V c main_v29 : S32x32.Idx → Ideal .f32) (ix2 p q) := by
  unfold iblk0
  rw [View.read_apply]
  show V c main_v29 _ = V c main_v29 _
  refine congrArg (V c main_v29) (funext fun a => Fin.ext ?_)
  obtain ⟨-, -, -, -, -, -, -, -, -, -, -, -, -, -, e0, e1, -⟩ := idx_facts t
  match a with
  | ⟨0, _⟩ => show win0_7.index t (0 : Fin 2) * 32 + 1 * p.val = p.val; rw [e0]; omega
  | ⟨1, _⟩ => show win0_7.index t (1 : Fin 2) * 32 + 1 * q.val = q.val; rw [e1]; omega

/-- The result array after the call, as a function of the arrays the call is entered with. -/
def G (c : Dev nD) : S100000x32.Idx → Ideal .f32 :=
  encode (V c main_arg0) (V c main_arg1) (V c main_arg3) (V c main_v30) (V c main_arg5) (V c main_v31) (V c main_v28) (V c main_v29)

/-- An element of the result window's block at point t sits at row 5000·t + its row. -/
theorem emb_out (t : Fin cfg0.N) (p : Fin 5000) (q : Fin 32) (k : Fin 100000) (hk : k.val = t.val * 5000 + p.val) :
    (((cfg0.win 8).blk t).view.emb (ix2 p q) : S100000x32.Idx) = ix2 k q := by
  funext a
  apply Fin.ext
  obtain ⟨-, -, -, -, -, -, -, -, -, -, -, -, -, -, -, -, e0, e1⟩ := idx_facts t
  match a with
  | ⟨0, _⟩ => show win0_8.index t (0 : Fin 2) * 5000 + 1 * p.val = k.val; rw [e0, hk]; omega
  | ⟨1, _⟩ => show win0_8.index t (1 : Fin 2) * 32 + 1 * q.val = q.val; rw [e1]; omega

/-- What point t writes back is block t of `G`. -/
theorem flushed (c : Dev nD) (t : Fin cfg0.N) :
    (dat0 V c).flushed 8 t = ((cfg0.win 8).blk t).view.read (Elt Ideal) (G V c) := by
  show (cfg0.win 8).cut (grid0.coords t) ((dat0 V c).after 8 t) = _
  rw [after0_8]
  unfold out0_8
  rw [View.canon_unit_zero hz]
  simp only [View.ld_unit_zero (S := S5000x32) hz, View.ld_unit_zero (S := S32x32) hz, View.ld_unit_zero (S := S1x32) hz,
    View.ld_unit_zero (S := S5000x128) hz, View.ld_unit_zero (S := S128x32) hz]
  funext j
  obtain ⟨p, q, rfl⟩ : ∃ (p : Fin 5000) (q : Fin 32), j = ix2 p q := ⟨j 0, j 1, eq_ix2 j⟩
  have hlt : t.val * 5000 + p.val < 100000 := by
    have h1 : t.val < 20 := Nat.lt_of_lt_of_eq t.isLt N_0
    have h2 := p.isLt
    omega
  show k0_pay1 (iblk0 V c 0 t) (iblk0 V c 2 t) (iblk0 V c 3 t) (iblk0 V c 1 t) (iblk0 V c 4 t) (iblk0 V c 5 t) (iblk0 V c 6 t) (iblk0 V c 7 t) (ix2 p q)
    = G V c (((cfg0.win 8).blk t).view.emb (ix2 p q))
  rw [emb_out t p q ⟨t.val * 5000 + p.val, hlt⟩ rfl]
  refine (congrFun (pay_eq (iblk0 V c 0 t) (iblk0 V c 1 t) (iblk0 V c 2 t) (iblk0 V c 3 t) (iblk0 V c 4 t) (iblk0 V c 5 t) (iblk0 V c 6 t) (iblk0 V c 7 t)) (ix2 p q)).trans ?_
  exact encode_congr (V c main_arg0) (V c main_arg1) (V c main_arg3) (V c main_v30) (V c main_arg5) (V c main_v31) (V c main_v28) (V c main_v29)
    (iblk0 V c 0 t) (iblk0 V c 1 t) (iblk0 V c 2 t) (iblk0 V c 3 t) (iblk0 V c 4 t) (iblk0 V c 5 t) (iblk0 V c 6 t) (iblk0 V c 7 t)
    p ⟨t.val * 5000 + p.val, hlt⟩ q
    (fun r => blk_0 V c t p r _ rfl) (fun r => blk_1 V c t p r _ rfl) (fun r s => blk_2 V c t r s) (fun s => blk_3 V c t 0 s)
    (fun r s => blk_4 V c t r s) (fun s => blk_5 V c t 0 s) (fun s => blk_6 V c t s q) (fun s => blk_7 V c t s q)

/-- An index of the result array is in point t's block iff each coordinate is in the block's range. -/
theorem mem_blk (t : Fin cfg0.N) (i : S100000x32.Idx) :
    i ∈ ((cfg0.win 8).blk t).view.set ↔ ∀ a : Fin 2, win0_8.index t a * S5000x32.size a ≤ (i a).val ∧ (i a).val < win0_8.index t a * S5000x32.size a + S5000x32.size a := by
  show i ∈ ((View.whole main_v32).slice (win0_8.rect t)).set ↔ _
  rw [View.set_slice_whole, Rect.mem_set_unit]
  exact Iff.rfl

/-- The 20 blocks of 5000 rows cover the result array: row r is in block r / 5000. -/
theorem cover (i : S100000x32.Idx) : ∃ t : Fin cfg0.N, (cfg0.win 8).flush t = true ∧ i ∈ ((cfg0.win 8).blk t).view.set := by
  have hi0 : (i 0).val < 100000 := (i 0).isLt
  have hi1 : (i 1).val < 32 := (i 1).isLt
  have hN : cfg0.N = 20 := N_0
  refine ⟨⟨(i 0).val / 5000, by rw [hN]; omega⟩, flush0_8 _, ?_⟩
  rw [mem_blk]
  obtain ⟨-, -, -, -, -, -, -, -, -, -, -, -, -, -, -, -, e0, e1⟩ := idx_facts ⟨(i 0).val / 5000, by rw [hN]; omega⟩
  intro a
  match a with
  | ⟨0, _⟩ =>
    show win0_8.index _ (0 : Fin 2) * 5000 ≤ (i 0).val ∧ (i 0).val < win0_8.index _ (0 : Fin 2) * 5000 + 5000
    rw [e0]; show (i 0).val / 5000 * 5000 ≤ (i 0).val ∧ (i 0).val < (i 0).val / 5000 * 5000 + 5000; omega
  | ⟨1, _⟩ =>
    show win0_8.index _ (1 : Fin 2) * 32 ≤ (i 1).val ∧ (i 1).val < win0_8.index _ (1 : Fin 2) * 32 + 32
    rw [e1]; omega

/-- The result array after the call is `G` of the arrays the call is entered with. -/
theorem final (c : Dev nD) : (dat0 V c).arrAt 8 cfg0.N = G V c :=
  (dat0 V c).arrAt_eq_of_cover 8 (G V c) (fun t _ => flushed V c t) cover

end Cert.KernelIdeal.Encode

end
-- ==== Proof.RegionFinalize1.lean ====
/-
  The second pallas_call's result array as one function of the arrays it is entered with.

  Over 20 grid points, at point t the aggregated messages, the transformed features, the one-column degree factor and the result
  hold rows 5000·t … 5000·t + 4999 of their arrays; the bias row and the second layer's weight hold their whole arrays. The
  body stores relu(agg + h · dcol + b) · w of its blocks, whose entry (p, j) reads only row p of agg and h and entry p of
  dcol, so point t writes back rows 5000·t … of that function of the whole arrays; the 20 blocks cover the [100000, 20] result.
-/
import proofs.«146932_j34840774705776_2_alg».proof.Proof.Gen.KernelIdeal.Frame
import proofs.«146932_j34840774705776_2_alg».proof.Proof.LibGcnLayers
import Idealize.ShloMosaic.Lib.Pipeline.Value

noncomputable section

namespace Cert.KernelIdeal.Finalize1

open Cert.KernelIdeal Cert.KernelIdeal.Gen Idealize.ShloMosaic Idealize.ShloMosaic.TcCoe Idealize.SL.Sem
open Idealize.ShloMosaic.ValueIdx Cert.LibGcnLayers
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem dot_32_20 : PlainDot dot_S5000x32_S32x20_S5000x20_1_0_0_1_n_n := PlainDot.of_lists _ rfl rfl rfl rfl rfl rfl

/-- The body's stored value is the stage's function of its loaded blocks. -/
theorem pay_eq (x0 x1 : Vec Ideal S5000x32 .f32) (x2 : Vec Ideal S5000x1 .f32) (x3 : Vec Ideal S1x32 .f32) (x4 : Vec Ideal S32x20 .f32) :
    k1_pay1 x0 x1 x2 x3 x4 = fin1 x0 x1 x2 x3 x4 := by
  unfold k1_pay1
  simp only [shapeCast_self]
  exact coreFin1_eq _ dot_32_20 _ _ none x0 x1 x2 x3 x4

/-- Where each window's block sits at point t: the row-indexed windows at block row t, the others at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the aggregated messages' block at point t is row 5000·t + p of the array. -/
theorem blk_0 (c : Dev nD) (t : Fin cfg1.N) (p : Fin 5000) (q : Fin 32) (k : Fin 100000) (hk : k.val = t.val * 5000 + p.val) :
    (iblk1 V c 0 t : Vec Ideal S5000x32 .f32) (ix2 p q) = (V c main_v45 : S100000x32.Idx → Ideal .f32) (ix2 k q) := by
  unfold iblk1
  rw [View.read_apply]
  show V c main_v45 _ = V c main_v45 _
  refine congrArg (V c main_v45) (funext fun a => Fin.ext ?_)
  obtain ⟨e0, e1, -⟩ := idx_facts t
  match a with
  | ⟨0, _⟩ => show win1_0.index t (0 : Fin 2) * 5000 + 1 * p.val = k.val; rw [e0, hk]; omega
  | ⟨1, _⟩ => show win1_0.index t (1 : Fin 2) * 32 + 1 * q.val = q.val; rw [e1]; omega

/-- Row p of the transformed features' block at point t is row 5000·t + p of the array. -/
theorem blk_1 (c : Dev nD) (t : Fin cfg1.N) (p : Fin 5000) (q : Fin 32) (k : Fin 100000) (hk : k.val = t.val * 5000 + p.val) :
    (iblk1 V c 1 t : Vec Ideal S5000x32 .f32) (ix2 p q) = (V c main_v32 : S100000x32.Idx → Ideal .f32) (ix2 k q) := by
  unfold iblk1
  rw [View.read_apply]
  show V c main_v32 _ = V c main_v32 _
  refine congrArg (V c main_v32) (funext fun a => Fin.ext ?_)
  obtain ⟨-, -, e0, e1, -⟩ := idx_facts t
  match a with
  | ⟨0, _⟩ => show win1_1.index t (0 : Fin 2) * 5000 + 1 * p.val = k.val; rw [e0, hk]; omega
  | ⟨1, _⟩ => show win1_1.index t (1 : Fin 2) * 32 + 1 * q.val = q.val; rw [e1]; omega

/-- Entry p of the degree factor's block at point t is entry 5000·t + p of the column. -/
theorem blk_2 (c : Dev nD) (t : Fin cfg1.N) (p : Fin 5000) (q : Fin 1) (k : Fin 100000) (hk : k.val = t.val * 5000 + p.val) :
    (iblk1 V c 2 t : Vec Ideal S5000x1 .f32) (ix2 p q) = (V c main_v27 : S100000x1.Idx → Ideal .f32) (ix2 k q) := by
  unfold iblk1
  rw [View.read_apply]
  show V c main_v27 _ = V c main_v27 _
  refine congrArg (V c main_v27) (funext fun a => Fin.ext ?_)
  obtain ⟨-, -, -, -, e0, e1, -⟩ := idx_facts t
  match a with
  | ⟨0, _⟩ => show win1_2.index t (0 : Fin 2) * 5000 + 1 * p.val = k.val; rw [e0, hk]; omega
  | ⟨1, _⟩ => show win1_2.index t (1 : Fin 2) * 1 + 1 * q.val = q.val; rw [e1]; omega

/-- The bias window holds its whole row at every point. -/
theorem blk_3 (c : Dev nD) (t : Fin cfg1.N) (p : Fin 1) (q : Fin 32) :
    (iblk1 V c 3 t : Vec Ideal S1x32 .f32) (ix2 p q) = (V c main_v46 : S1x32.Idx → Ideal .f32) (ix2 p q) := by
  unfold iblk1
  rw [View.read_apply]
  show V c main_v46 _ = V c main_v46 _
  refine congrArg (V c main_v46) (funext fun a => Fin.ext ?_)
  obtain ⟨-, -, -, -, -, -, e0, e1, -⟩ := idx_facts t
  match a with
  | ⟨0, _⟩ => show win1_3.index t (0 : Fin 2) * 1 + 1 * p.val = p.val; rw [e0]; omega
  | ⟨1, _⟩ => show win1_3.index t (1 : Fin 2) * 32 + 1 * q.val = q.val; rw [e1]; omega

/-- The weight window holds its whole array at every point. -/
theorem blk_4 (c : Dev nD) (t : Fin cfg1.N) (p : Fin 32) (q : Fin 20) :
    (iblk1 V c 4 t : Vec Ideal S32x20 .f32) (ix2 p q) = (V c main_arg9 : S32x20.Idx → Ideal .f32) (ix2 p q) := by
  unfold iblk1
  rw [View.read_apply]
  show V c main_arg9 _ = V c main_arg9 _
  refine congrArg (V c main_arg9) (funext fun a => Fin.ext ?_)
  obtain ⟨-, -, -, -, -, -, -, -, e0, e1, -⟩ := idx_facts t
  match a with
  | ⟨0, _⟩ => show win1_4.index t (0 : Fin 2) * 32 + 1 * p.val = p.val; rw [e0]; omega
  | ⟨1, _⟩ => show win1_4.index t (1 : Fin 2) * 20 + 1 * q.val = q.val; rw [e1]; omega

/-- The result array after the call, as a function of the arrays the call is entered with. -/
def G (c : Dev nD) : S100000x20.Idx → Ideal .f32 :=
  fin1 (V c main_v45) (V c main_v32) (V c main_v27) (V c main_v46) (V c main_arg9)

/-- An element of the result window's block at point t sits at row 5000·t + its row. -/
theorem emb_out (t : Fin cfg1.N) (p : Fin 5000) (q : Fin 20) (k : Fin 100000) (hk : k.val = t.val * 5000 + p.val) :
    (((cfg1.win 5).blk t).view.emb (ix2 p q) : S100000x20.Idx) = ix2 k q := by
  funext a
  apply Fin.ext
  obtain ⟨-, -, -, -, -, -, -, -, -, -, e0, e1⟩ := idx_facts t
  match a with
  | ⟨0, _⟩ => show win1_5.index t (0 : Fin 2) * 5000 + 1 * p.val = k.val; rw [e0, hk]; omega
  | ⟨1, _⟩ => show win1_5.index t (1 : Fin 2) * 20 + 1 * q.val = q.val; rw [e1]; omega

/-- What point t writes back is block t of `G`. -/
theorem flushed (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x32) hz, View.ld_unit_zero (S := S5000x1) hz, View.ld_unit_zero (S := S1x32) hz, View.ld_unit_zero (S := S32x20) hz]
  funext j
  obtain ⟨p, q, rfl⟩ : ∃ (p : Fin 5000) (q : Fin 20), j = ix2 p q := ⟨j 0, j 1, eq_ix2 j⟩
  have hlt : t.val * 5000 + p.val < 100000 := by
    have h1 : t.val < 20 := Nat.lt_of_lt_of_eq t.isLt N_1
    have h2 := p.isLt
    omega
  show k1_pay1 (iblk1 V c 0 t) (iblk1 V c 1 t) (iblk1 V c 2 t) (iblk1 V c 3 t) (iblk1 V c 4 t) (ix2 p q)
    = G V c (((cfg1.win 5).blk t).view.emb (ix2 p q))
  rw [emb_out t p q ⟨t.val * 5000 + p.val, hlt⟩ rfl]
  refine (congrFun (pay_eq (iblk1 V c 0 t) (iblk1 V c 1 t) (iblk1 V c 2 t) (iblk1 V c 3 t) (iblk1 V c 4 t)) (ix2 p q)).trans ?_
  exact fin1_congr (V c main_v45) (V c main_v32) (V c main_v27) (V c main_v46) (V c main_arg9)
    (iblk1 V c 0 t) (iblk1 V c 1 t) (iblk1 V c 2 t) (iblk1 V c 3 t) (iblk1 V c 4 t) p ⟨t.val * 5000 + p.val, hlt⟩ q
    (fun s => blk_0 V c t p s _ rfl) (fun s => blk_1 V c t p s _ rfl) (blk_2 V c t p 0 _ rfl) (fun s => blk_3 V c t 0 s) (fun s => blk_4 V c t s q)

/-- An index of the result array is in point t's block iff each coordinate is in the block's range. -/
theorem mem_blk (t : Fin cfg1.N) (i : S100000x20.Idx) :
    i ∈ ((cfg1.win 5).blk t).view.set ↔ ∀ a : Fin 2, win1_5.index t a * S5000x20.size a ≤ (i a).val ∧ (i a).val < win1_5.index t a * S5000x20.size a + S5000x20.size a := by
  show i ∈ ((View.whole main_v47).slice (win1_5.rect t)).set ↔ _
  rw [View.set_slice_whole, Rect.mem_set_unit]
  exact Iff.rfl

/-- The 20 blocks of 5000 rows cover the result array: row r is in block r / 5000. -/
theorem cover (i : S100000x20.Idx) : ∃ t : Fin cfg1.N, (cfg1.win 5).flush t = true ∧ i ∈ ((cfg1.win 5).blk t).view.set := by
  have hi0 : (i 0).val < 100000 := (i 0).isLt
  have hi1 : (i 1).val < 20 := (i 1).isLt
  have hN : cfg1.N = 20 := N_1
  refine ⟨⟨(i 0).val / 5000, by rw [hN]; omega⟩, flush1_5 _, ?_⟩
  rw [mem_blk]
  obtain ⟨-, -, -, -, -, -, -, -, -, -, e0, e1⟩ := idx_facts ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 20 ≤ (i 1).val ∧ (i 1).val < win1_5.index _ (1 : Fin 2) * 20 + 20
    rw [e1]; omega

/-- The result array after the call is `G` of the arrays the call is entered with. -/
theorem final (c : Dev nD) : (dat1 V c).arrAt 5 cfg1.N = G V c :=
  (dat1 V c).arrAt_eq_of_cover 5 (G V c) (fun t _ => flushed V c t) cover

end Cert.KernelIdeal.Finalize1

end
-- ==== Proof.HostStages.lean ====
/-
  The host stretches of the kernel program, read at the buffers the pallas_calls take.

  Before the first call the program cuts the edge list into its source and target rows, counts each node's incoming edges,
  forms dinv = (count + 1)^(-1/2), the edge weights dinv[src] · dinv[dst], the column dinv², the two halves of the stacked
  weight and the bias rows. Between the calls it gathers the previous call's rows by source node, scales them by the edge
  weights and adds them up by target node. Each buffer is read back through the fold of its stretch's operations to a
  stage of the reference's own program applied to the same argument (the two programs apply the same operations there),
  or, where the kernel program reshapes a vector that the reference broadcasts, to that stage by the law that the two
  lay the vector out identically; buffers a stretch or a call does not write keep their contents.
-/
import proofs.«146932_j34840774705776_2_alg».proof.Proof.Gen.KernelIdeal.Frame
import proofs.«146932_j34840774705776_2_alg».proof.Proof.Spec
import proofs.«146932_j34840774705776_2_alg».proof.Proof.RegionEncode
import proofs.«146932_j34840774705776_2_alg».proof.Proof.RegionFinalize1

noncomputable section

namespace Cert.KernelIdeal.Stages

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read

variable (m : (ℓ : Loc nD τ sig) → Buf (Elt Ideal) ℓ) (ρ : Dev nD → PrngReg)

/-! ## Before the first call -/

set_option maxHeartbeats 4000000 in
/-- No operation before the first call writes argument 0. -/
theorem w1_arg0 (c : Dev nD) : W1 m ρ c (Proc.devRef .tc main_arg0) = (m ((c : Thread nD τ).loc main_arg0)) := by
  show StableHlo.after hostOps0 (W0 m ρ c) (Proc.devRef .tc main_arg0) = _
  after_results_simp <;> rfl
set_option maxHeartbeats 4000000 in
/-- No operation before the first call writes argument 1. -/
theorem w1_arg1 (c : Dev nD) : W1 m ρ c (Proc.devRef .tc main_arg1) = (m ((c : Thread nD τ).loc main_arg1)) := by
  show StableHlo.after hostOps0 (W0 m ρ c) (Proc.devRef .tc main_arg1) = _
  after_results_simp <;> rfl
set_option maxHeartbeats 4000000 in
/-- No operation before the first call writes argument 3. -/
theorem w1_arg3 (c : Dev nD) : W1 m ρ c (Proc.devRef .tc main_arg3) = (m ((c : Thread nD τ).loc main_arg3)) := by
  show StableHlo.after hostOps0 (W0 m ρ c) (Proc.devRef .tc main_arg3) = _
  after_results_simp <;> rfl
set_option maxHeartbeats 4000000 in
/-- No operation before the first call writes argument 5. -/
theorem w1_arg5 (c : Dev nD) : W1 m ρ c (Proc.devRef .tc main_arg5) = (m ((c : Thread nD τ).loc main_arg5)) := by
  show StableHlo.after hostOps0 (W0 m ρ c) (Proc.devRef .tc main_arg5) = _
  after_results_simp <;> rfl
set_option maxHeartbeats 4000000 in
/-- No operation before the first call writes argument 8. -/
theorem w1_arg8 (c : Dev nD) : W1 m ρ c (Proc.devRef .tc main_arg8) = (m ((c : Thread nD τ).loc main_arg8)) := by
  show StableHlo.after hostOps0 (W0 m ρ c) (Proc.devRef .tc main_arg8) = _
  after_results_simp <;> rfl
set_option maxHeartbeats 4000000 in
/-- No operation before the first call writes argument 9. -/
theorem w1_arg9 (c : Dev nD) : W1 m ρ c (Proc.devRef .tc main_arg9) = (m ((c : Thread nD τ).loc main_arg9)) := by
  show StableHlo.after hostOps0 (W0 m ρ c) (Proc.devRef .tc main_arg9) = _
  after_results_simp <;> rfl
set_option maxHeartbeats 4000000 in
/-- No operation before the first call writes argument 10. -/
theorem w1_arg10 (c : Dev nD) : W1 m ρ c (Proc.devRef .tc main_arg10) = (m ((c : Thread nD τ).loc main_arg10)) := by
  show StableHlo.after hostOps0 (W0 m ρ c) (Proc.devRef .tc main_arg10) = _
  after_results_simp <;> rfl
set_option maxHeartbeats 4000000 in
/-- The source row of the edge list. -/
theorem w1_src (c : Dev nD) : W1 m ρ c (Proc.devRef .tc main_v1) = val_main_v1 (F := Ideal) (m ((c : Thread nD τ).loc main_arg2)) := by
  show StableHlo.after hostOps0 (W0 m ρ c) (Proc.devRef .tc main_v1) = _
  after_results_simp <;> rfl
set_option maxHeartbeats 4000000 in
/-- The target row of the edge list. -/
theorem w1_dst (c : Dev nD) : W1 m ρ c (Proc.devRef .tc main_v3) = val_main_v3 (F := Ideal) (m ((c : Thread nD τ).loc main_arg2)) := by
  show StableHlo.after hostOps0 (W0 m ρ c) (Proc.devRef .tc main_v3) = _
  after_results_simp <;> rfl
set_option maxHeartbeats 4000000 in
/-- The edge weights dinv[src] · dinv[dst]. -/
theorem w1_norm (c : Dev nD) : W1 m ρ c (Proc.devRef .tc main_v25) = val_main_v36 (F := Ideal) (m ((c : Thread nD τ).loc main_arg2)) := by
  show StableHlo.after hostOps0 (W0 m ρ c) (Proc.devRef .tc main_v25) = _
  after_results_simp <;> rfl
set_option maxHeartbeats 4000000 in
/-- The column dinv²: the kernel program reshapes the vector, the reference broadcasts it along axis 0. -/
theorem w1_dcol (c : Dev nD) : W1 m ρ c (Proc.devRef .tc main_v27) = val_main_v51 (F := Ideal) (m ((c : Thread nD τ).loc main_arg2)) := by
  have e : W1 m ρ c (Proc.devRef .tc main_v27)
      = shapeCast S100000x1 (val_main_v50 (F := Ideal) (m ((c : Thread nD τ).loc main_arg2))) shapeCasts_S100000_S100000x1 := by
    show StableHlo.after hostOps0 (W0 m ρ c) (Proc.devRef .tc main_v27) = _
    after_results_simp <;> rfl
  rw [e]
  exact Cert.LibColumnRow.shapeCast_col_eq_broadcastInDim _ _ _
set_option maxHeartbeats 4000000 in
/-- The first encoder's bias as a row: reshaped here, broadcast along axis 1 in the reference. -/
theorem w1_fb (c : Dev nD) : W1 m ρ c (Proc.devRef .tc main_v30) = val_main_v5 (F := Ideal) (m ((c : Thread nD τ).loc main_arg4)) := by
  have e : W1 m ρ c (Proc.devRef .tc main_v30) = shapeCast S1x32 (m ((c : Thread nD τ).loc main_arg4)) shapeCasts_S32_S1x32 := by
    show StableHlo.after hostOps0 (W0 m ρ c) (Proc.devRef .tc main_v30) = _
    after_results_simp <;> rfl
  rw [e]
  exact Cert.LibColumnRow.shapeCast_row_eq_broadcastInDim _ _ _
set_option maxHeartbeats 4000000 in
/-- The second encoder's bias as a row. -/
theorem w1_cb (c : Dev nD) : W1 m ρ c (Proc.devRef .tc main_v31) = val_main_v9 (F := Ideal) (m ((c : Thread nD τ).loc main_arg6)) := by
  have e : W1 m ρ c (Proc.devRef .tc main_v31) = shapeCast S1x32 (m ((c : Thread nD τ).loc main_arg6)) shapeCasts_S32_S1x32 := by
    show StableHlo.after hostOps0 (W0 m ρ c) (Proc.devRef .tc main_v31) = _
    after_results_simp <;> rfl
  rw [e]
  exact Cert.LibColumnRow.shapeCast_row_eq_broadcastInDim _ _ _
set_option maxHeartbeats 4000000 in
/-- Rows 0 … 31 of the stacked weight. -/
theorem w1_top (c : Dev nD) : W1 m ρ c (Proc.devRef .tc main_v28) = Cert.GcnSpec.top (m ((c : Thread nD τ).loc main_arg7)) := by
  have e : W1 m ρ c (Proc.devRef .tc main_v28) = extractStridedSlice S32x32 ![0, 0] (m ((c : Thread nD τ).loc main_arg7)) slices_S64x32_S32x32_0_0 := by
    show StableHlo.after hostOps0 (W0 m ρ c) (Proc.devRef .tc main_v28) = _
    after_results_simp <;> rfl
  rw [e]
  funext i
  unfold Cert.GcnSpec.top
  exact extractStridedSlice_apply (s := S64x32) (t := S32x32) ![0, 0] _ slices_S64x32_S32x32_0_0 i _ (fun a => match a with
    | ⟨0, _⟩ => by show (i 0).val = 0 + (i 0).val; omega
    | ⟨1, _⟩ => by show (i 1).val = 0 + (i 1).val; omega)
set_option maxHeartbeats 4000000 in
/-- Rows 32 … 63 of the stacked weight. -/
theorem w1_bot (c : Dev nD) : W1 m ρ c (Proc.devRef .tc main_v29) = Cert.GcnSpec.bot (m ((c : Thread nD τ).loc main_arg7)) := by
  have e : W1 m ρ c (Proc.devRef .tc main_v29) = extractStridedSlice S32x32 ![32, 0] (m ((c : Thread nD τ).loc main_arg7)) slices_S64x32_S32x32_32_0 := by
    show StableHlo.after hostOps0 (W0 m ρ c) (Proc.devRef .tc main_v29) = _
    after_results_simp <;> rfl
  rw [e]
  funext i
  unfold Cert.GcnSpec.bot
  exact extractStridedSlice_apply (s := S64x32) (t := S32x32) ![32, 0] _ slices_S64x32_S32x32_32_0 i _ (fun a => match a with
    | ⟨0, _⟩ => by show 32 + (i 0).val = 32 + (i 0).val; omega
    | ⟨1, _⟩ => by show (i 1).val = 0 + (i 1).val; omega)

/-! ## The first call and the stretch after it -/

/-- The first call does not write main_v1. -/
theorem w2_v1 (c : Dev nD) : W2 m ρ c (Proc.devRef .tc main_v1) = W1 m ρ c (Proc.devRef .tc main_v1) := W2_of_ne m ρ c main_v1 (by decide)
/-- The first call does not write main_v3. -/
theorem w2_v3 (c : Dev nD) : W2 m ρ c (Proc.devRef .tc main_v3) = W1 m ρ c (Proc.devRef .tc main_v3) := W2_of_ne m ρ c main_v3 (by decide)
/-- The first call does not write main_v25. -/
theorem w2_v25 (c : Dev nD) : W2 m ρ c (Proc.devRef .tc main_v25) = W1 m ρ c (Proc.devRef .tc main_v25) := W2_of_ne m ρ c main_v25 (by decide)
/-- The first call does not write main_v27. -/
theorem w2_v27 (c : Dev nD) : W2 m ρ c (Proc.devRef .tc main_v27) = W1 m ρ c (Proc.devRef .tc main_v27) := W2_of_ne m ρ c main_v27 (by decide)
/-- The first call does not write main_arg8. -/
theorem w2_arg8 (c : Dev nD) : W2 m ρ c (Proc.devRef .tc main_arg8) = W1 m ρ c (Proc.devRef .tc main_arg8) := W2_of_ne m ρ c main_arg8 (by decide)
/-- The first call does not write main_arg9. -/
theorem w2_arg9 (c : Dev nD) : W2 m ρ c (Proc.devRef .tc main_arg9) = W1 m ρ c (Proc.devRef .tc main_arg9) := W2_of_ne m ρ c main_arg9 (by decide)
/-- The first call does not write main_arg10. -/
theorem w2_arg10 (c : Dev nD) : W2 m ρ c (Proc.devRef .tc main_arg10) = W1 m ρ c (Proc.devRef .tc main_arg10) := W2_of_ne m ρ c main_arg10 (by decide)

/-- The first call leaves `H` of the arguments in its result array. -/
theorem w2_h (c : Dev nD) : W2 m ρ c (Proc.devRef .tc main_v32) = Cert.GcnSpec.H (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W2_arr m ρ c 8).trans ((Cert.KernelIdeal.Encode.final (V1 m ρ) c).trans ?_)
  unfold Cert.KernelIdeal.Encode.G Cert.GcnSpec.H
  show Cert.LibGcnLayers.encode (W1 m ρ c (Proc.devRef .tc main_arg0)) (W1 m ρ c (Proc.devRef .tc main_arg1)) (W1 m ρ c (Proc.devRef .tc main_arg3))
    (W1 m ρ c (Proc.devRef .tc main_v30)) (W1 m ρ c (Proc.devRef .tc main_arg5)) (W1 m ρ c (Proc.devRef .tc main_v31)) (W1 m ρ c (Proc.devRef .tc main_v28))
    (W1 m ρ c (Proc.devRef .tc main_v29)) = _
  rw [w1_arg0, w1_arg1, w1_arg3, w1_fb, w1_arg5, w1_cb, w1_top, w1_bot]

set_option maxHeartbeats 4000000 in
/-- The weighted sum over incoming edges of the first call's rows. -/
theorem w3_agg (c : Dev nD) : W3 m ρ c (Proc.devRef .tc main_v45) = Cert.GcnSpec.edgeSum32 (W2 m ρ c (Proc.devRef .tc main_v32)) (m ((c : Thread nD τ).loc main_arg2)) := by
  show StableHlo.after hostOps1 (W2 m ρ c) (Proc.devRef .tc main_v45) = _
  after_results_simp
  rw [w2_v1, w2_v3, w2_v25, w1_src, w1_dst, w1_norm]
  rfl
set_option maxHeartbeats 4000000 in
/-- The stretch after the first call does not write the call's result. -/
theorem w3_v32 (c : Dev nD) : W3 m ρ c (Proc.devRef .tc main_v32) = W2 m ρ c (Proc.devRef .tc main_v32) := by
  show StableHlo.after hostOps1 (W2 m ρ c) (Proc.devRef .tc main_v32) = _
  after_results_simp <;> rfl
set_option maxHeartbeats 4000000 in
/-- Nor the column dinv². -/
theorem w3_v27 (c : Dev nD) : W3 m ρ c (Proc.devRef .tc main_v27) = W2 m ρ c (Proc.devRef .tc main_v27) := by
  show StableHlo.after hostOps1 (W2 m ρ c) (Proc.devRef .tc main_v27) = _
  after_results_simp <;> rfl
set_option maxHeartbeats 4000000 in
/-- Nor the second layer's weight. -/
theorem w3_arg9 (c : Dev nD) : W3 m ρ c (Proc.devRef .tc main_arg9) = W2 m ρ c (Proc.devRef .tc main_arg9) := by
  show StableHlo.after hostOps1 (W2 m ρ c) (Proc.devRef .tc main_arg9) = _
  after_results_simp <;> rfl
set_option maxHeartbeats 4000000 in
/-- Nor main_v1. -/
theorem w3_v1 (c : Dev nD) : W3 m ρ c (Proc.devRef .tc main_v1) = W2 m ρ c (Proc.devRef .tc main_v1) := by
  show StableHlo.after hostOps1 (W2 m ρ c) (Proc.devRef .tc main_v1) = _
  after_results_simp <;> rfl
set_option maxHeartbeats 4000000 in
/-- Nor main_v3. -/
theorem w3_v3 (c : Dev nD) : W3 m ρ c (Proc.devRef .tc main_v3) = W2 m ρ c (Proc.devRef .tc main_v3) := by
  show StableHlo.after hostOps1 (W2 m ρ c) (Proc.devRef .tc main_v3) = _
  after_results_simp <;> rfl
set_option maxHeartbeats 4000000 in
/-- Nor main_v25. -/
theorem w3_v25 (c : Dev nD) : W3 m ρ c (Proc.devRef .tc main_v25) = W2 m ρ c (Proc.devRef .tc main_v25) := by
  show StableHlo.after hostOps1 (W2 m ρ c) (Proc.devRef .tc main_v25) = _
  after_results_simp <;> rfl
set_option maxHeartbeats 4000000 in
/-- Nor main_arg10. -/
theorem w3_arg10 (c : Dev nD) : W3 m ρ c (Proc.devRef .tc main_arg10) = W2 m ρ c (Proc.devRef .tc main_arg10) := by
  show StableHlo.after hostOps1 (W2 m ρ c) (Proc.devRef .tc main_arg10) = _
  after_results_simp <;> rfl
set_option maxHeartbeats 4000000 in
/-- The first layer's bias as a row. -/
theorem w3_b1 (c : Dev nD) : W3 m ρ c (Proc.devRef .tc main_v46) = val_main_v55 (F := Ideal) (m ((c : Thread nD τ).loc main_arg8)) := by
  have e : W3 m ρ c (Proc.devRef .tc main_v46) = shapeCast S1x32 (W2 m ρ c (Proc.devRef .tc main_arg8)) shapeCasts_S32_S1x32 := by
    show StableHlo.after hostOps1 (W2 m ρ c) (Proc.devRef .tc main_v46) = _
    after_results_simp <;> rfl
  rw [e, w2_arg8, w1_arg8]
  exact Cert.LibColumnRow.shapeCast_row_eq_broadcastInDim _ _ _

/-! ## The second call and the stretch after it -/

/-- The second call does not write main_v1. -/
theorem w4_v1 (c : Dev nD) : W4 m ρ c (Proc.devRef .tc main_v1) = W3 m ρ c (Proc.devRef .tc main_v1) := W4_of_ne m ρ c main_v1 (by decide)
/-- The second call does not write main_v3. -/
theorem w4_v3 (c : Dev nD) : W4 m ρ c (Proc.devRef .tc main_v3) = W3 m ρ c (Proc.devRef .tc main_v3) := W4_of_ne m ρ c main_v3 (by decide)
/-- The second call does not write main_v25. -/
theorem w4_v25 (c : Dev nD) : W4 m ρ c (Proc.devRef .tc main_v25) = W3 m ρ c (Proc.devRef .tc main_v25) := W4_of_ne m ρ c main_v25 (by decide)
/-- The second call only reads the column dinv². -/
theorem w4_v27 (c : Dev nD) : W4 m ρ c (Proc.devRef .tc main_v27) = W3 m ρ c (Proc.devRef .tc main_v27) :=
  (W4_arr m ρ c 2).trans (((dat1 (V3 m ρ) c).arrAt_in 2 rfl _).trans (A_eq1 (V3 m ρ) c 2))
/-- The second call does not write main_arg10. -/
theorem w4_arg10 (c : Dev nD) : W4 m ρ c (Proc.devRef .tc main_arg10) = W3 m ρ c (Proc.devRef .tc main_arg10) := W4_of_ne m ρ c main_arg10 (by decide)

/-- The second call leaves `H2` of the arguments in its result array. -/
theorem w4_h2 (c : Dev nD) : W4 m ρ c (Proc.devRef .tc main_v47) = Cert.GcnSpec.H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 5).trans ((Cert.KernelIdeal.Finalize1.final (V3 m ρ) c).trans ?_)
  unfold Cert.KernelIdeal.Finalize1.G Cert.GcnSpec.H2
  show Cert.LibGcnLayers.fin1 (W3 m ρ c (Proc.devRef .tc main_v45)) (W3 m ρ c (Proc.devRef .tc main_v32)) (W3 m ρ c (Proc.devRef .tc main_v27))
    (W3 m ρ c (Proc.devRef .tc main_v46)) (W3 m ρ c (Proc.devRef .tc main_arg9)) = _
  rw [w3_agg, w3_v32, w2_h, w3_v27, w2_v27, w1_dcol, w3_b1, w3_arg9, w2_arg9, w1_arg9]

set_option maxHeartbeats 4000000 in
/-- The weighted sum over incoming edges of the second call's rows. -/
theorem w5_agg (c : Dev nD) : W5 m ρ c (Proc.devRef .tc main_v60) = Cert.GcnSpec.edgeSum20 (W4 m ρ c (Proc.devRef .tc main_v47)) (m ((c : Thread nD τ).loc main_arg2)) := by
  show StableHlo.after hostOps2 (W4 m ρ c) (Proc.devRef .tc main_v60) = _
  after_results_simp
  rw [w4_v1, w3_v1, w2_v1, w1_src, w4_v3, w3_v3, w2_v3, w1_dst, w4_v25, w3_v25, w2_v25, w1_norm]
  rfl
set_option maxHeartbeats 4000000 in
/-- The stretch after the second call does not write the call's result. -/
theorem w5_v47 (c : Dev nD) : W5 m ρ c (Proc.devRef .tc main_v47) = W4 m ρ c (Proc.devRef .tc main_v47) := by
  show StableHlo.after hostOps2 (W4 m ρ c) (Proc.devRef .tc main_v47) = _
  after_results_simp <;> rfl
set_option maxHeartbeats 4000000 in
/-- Nor the column dinv². -/
theorem w5_v27 (c : Dev nD) : W5 m ρ c (Proc.devRef .tc main_v27) = W4 m ρ c (Proc.devRef .tc main_v27) := by
  show StableHlo.after hostOps2 (W4 m ρ c) (Proc.devRef .tc main_v27) = _
  after_results_simp <;> rfl
set_option maxHeartbeats 4000000 in
/-- The second layer's bias as a row. -/
theorem w5_b2 (c : Dev nD) : W5 m ρ c (Proc.devRef .tc main_v61) = val_main_v100 (F := Ideal) (m ((c : Thread nD τ).loc main_arg10)) := by
  have e : W5 m ρ c (Proc.devRef .tc main_v61) = shapeCast S1x20 (W4 m ρ c (Proc.devRef .tc main_arg10)) shapeCasts_S20_S1x20 := by
    show StableHlo.after hostOps2 (W4 m ρ c) (Proc.devRef .tc main_v61) = _
    after_results_simp <;> rfl
  rw [e, w4_arg10, w3_arg10, w2_arg10, w1_arg10]
  exact Cert.LibColumnRow.shapeCast_row_eq_broadcastInDim _ _ _

/-- The reference computes the column dinv² once per convolution; the two are one array. -/
theorem dcol_twice (x2 : (⟨Cert.ReferenceIdeal.S2x3200000, .i32⟩ : BufTy).Contents (Elt Ideal)) :
    val_main_v96 (F := Ideal) x2 = val_main_v51 (F := Ideal) x2 := rfl

end Cert.KernelIdeal.Stages

end
-- ==== Proof.RegionFinalize2.lean ====
/-
  The third pallas_call's result array as one function of the arrays it is entered with.

  Over 20 grid points, at point t the aggregated messages, the transformed features, the one-column degree factor and the result
  hold rows 5000·t … 5000·t + 4999 of their arrays; the bias row holds its whole array. The body stores agg + h · dcol + b of
  its blocks, entry by entry, so point t writes back rows 5000·t … of that function of the whole arrays; the 20 blocks
  cover the [100000, 20] result.
-/
import proofs.«146932_j34840774705776_2_alg».proof.Proof.Gen.KernelIdeal.Frame
import proofs.«146932_j34840774705776_2_alg».proof.Proof.LibGcnLayers
import Idealize.ShloMosaic.Lib.Pipeline.Value

noncomputable section

namespace Cert.KernelIdeal.Finalize2

open Cert.KernelIdeal Cert.KernelIdeal.Gen Idealize.ShloMosaic Idealize.ShloMosaic.TcCoe Idealize.SL.Sem
open Idealize.ShloMosaic.ValueIdx Cert.LibGcnLayers
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the stage's function of its loaded blocks. -/
theorem pay_eq (x0 x1 : Vec Ideal S5000x20 .f32) (x2 : Vec Ideal S5000x1 .f32) (x3 : Vec Ideal S1x20 .f32) :
    k2_pay1 x0 x1 x2 x3 = selfLoop x0 x1 x2 x3 := by
  unfold k2_pay1
  simp only [shapeCast_self]
  exact coreSelfLoop_eq _ _ x0 x1 x2 x3

/-- Where each window's block sits at point t: the row-indexed windows at block row t, the others at the origin. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of the aggregated messages' block at point t is row 5000·t + p of the array. -/
theorem blk_0 (c : Dev nD) (t : Fin cfg2.N) (p : Fin 5000) (q : Fin 20) (k : Fin 100000) (hk : k.val = t.val * 5000 + p.val) :
    (iblk2 V c 0 t : Vec Ideal S5000x20 .f32) (ix2 p q) = (V c main_v60 : S100000x20.Idx → Ideal .f32) (ix2 k q) := by
  unfold iblk2
  rw [View.read_apply]
  show V c main_v60 _ = V c main_v60 _
  refine congrArg (V c main_v60) (funext fun a => Fin.ext ?_)
  obtain ⟨e0, e1, -⟩ := idx_facts t
  match a with
  | ⟨0, _⟩ => show win2_0.index t (0 : Fin 2) * 5000 + 1 * p.val = k.val; rw [e0, hk]; omega
  | ⟨1, _⟩ => show win2_0.index t (1 : Fin 2) * 20 + 1 * q.val = q.val; rw [e1]; omega

/-- Row p of the transformed features' block at point t is row 5000·t + p of the array. -/
theorem blk_1 (c : Dev nD) (t : Fin cfg2.N) (p : Fin 5000) (q : Fin 20) (k : Fin 100000) (hk : k.val = t.val * 5000 + p.val) :
    (iblk2 V c 1 t : Vec Ideal S5000x20 .f32) (ix2 p q) = (V c main_v47 : S100000x20.Idx → Ideal .f32) (ix2 k q) := by
  unfold iblk2
  rw [View.read_apply]
  show V c main_v47 _ = V c main_v47 _
  refine congrArg (V c main_v47) (funext fun a => Fin.ext ?_)
  obtain ⟨-, -, e0, e1, -⟩ := idx_facts t
  match a with
  | ⟨0, _⟩ => show win2_1.index t (0 : Fin 2) * 5000 + 1 * p.val = k.val; rw [e0, hk]; omega
  | ⟨1, _⟩ => show win2_1.index t (1 : Fin 2) * 20 + 1 * q.val = q.val; rw [e1]; omega

/-- Entry p of the degree factor's block at point t is entry 5000·t + p of the column. -/
theorem blk_2 (c : Dev nD) (t : Fin cfg2.N) (p : Fin 5000) (q : Fin 1) (k : Fin 100000) (hk : k.val = t.val * 5000 + p.val) :
    (iblk2 V c 2 t : Vec Ideal S5000x1 .f32) (ix2 p q) = (V c main_v27 : S100000x1.Idx → Ideal .f32) (ix2 k q) := by
  unfold iblk2
  rw [View.read_apply]
  show V c main_v27 _ = V c main_v27 _
  refine congrArg (V c main_v27) (funext fun a => Fin.ext ?_)
  obtain ⟨-, -, -, -, e0, e1, -⟩ := idx_facts t
  match a with
  | ⟨0, _⟩ => show win2_2.index t (0 : Fin 2) * 5000 + 1 * p.val = k.val; rw [e0, hk]; omega
  | ⟨1, _⟩ => show win2_2.index t (1 : Fin 2) * 1 + 1 * q.val = q.val; rw [e1]; omega

/-- The bias window holds its whole row at every point. -/
theorem blk_3 (c : Dev nD) (t : Fin cfg2.N) (p : Fin 1) (q : Fin 20) :
    (iblk2 V c 3 t : Vec Ideal S1x20 .f32) (ix2 p q) = (V c main_v61 : S1x20.Idx → Ideal .f32) (ix2 p q) := by
  unfold iblk2
  rw [View.read_apply]
  show V c main_v61 _ = V c main_v61 _
  refine congrArg (V c main_v61) (funext fun a => Fin.ext ?_)
  obtain ⟨-, -, -, -, -, -, e0, e1, -⟩ := idx_facts t
  match a with
  | ⟨0, _⟩ => show win2_3.index t (0 : Fin 2) * 1 + 1 * p.val = p.val; rw [e0]; omega
  | ⟨1, _⟩ => show win2_3.index t (1 : Fin 2) * 20 + 1 * q.val = q.val; rw [e1]; omega

/-- The result array after the call, as a function of the arrays the call is entered with. -/
def G (c : Dev nD) : S100000x20.Idx → Ideal .f32 :=
  selfLoop (V c main_v60) (V c main_v47) (V c main_v27) (V c main_v61)

/-- An element of the result window's block at point t sits at row 5000·t + its row. -/
theorem emb_out (t : Fin cfg2.N) (p : Fin 5000) (q : Fin 20) (k : Fin 100000) (hk : k.val = t.val * 5000 + p.val) :
    (((cfg2.win 4).blk t).view.emb (ix2 p q) : S100000x20.Idx) = ix2 k q := by
  funext a
  apply Fin.ext
  obtain ⟨-, -, -, -, -, -, -, -, e0, e1⟩ := idx_facts t
  match a with
  | ⟨0, _⟩ => show win2_4.index t (0 : Fin 2) * 5000 + 1 * p.val = k.val; rw [e0, hk]; omega
  | ⟨1, _⟩ => show win2_4.index t (1 : Fin 2) * 20 + 1 * q.val = q.val; rw [e1]; omega

/-- What point t writes back is block t of `G`. -/
theorem flushed (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4]
  unfold out2_4
  rw [View.canon_unit_zero hz]
  simp only [View.ld_unit_zero (S := S5000x20) hz, View.ld_unit_zero (S := S5000x1) hz, View.ld_unit_zero (S := S1x20) hz]
  funext j
  obtain ⟨p, q, rfl⟩ : ∃ (p : Fin 5000) (q : Fin 20), j = ix2 p q := ⟨j 0, j 1, eq_ix2 j⟩
  have hlt : t.val * 5000 + p.val < 100000 := by
    have h1 : t.val < 20 := Nat.lt_of_lt_of_eq t.isLt N_2
    have h2 := p.isLt
    omega
  show k2_pay1 (iblk2 V c 0 t) (iblk2 V c 1 t) (iblk2 V c 2 t) (iblk2 V c 3 t) (ix2 p q)
    = G V c (((cfg2.win 4).blk t).view.emb (ix2 p q))
  rw [emb_out t p q ⟨t.val * 5000 + p.val, hlt⟩ rfl]
  refine (congrFun (pay_eq (iblk2 V c 0 t) (iblk2 V c 1 t) (iblk2 V c 2 t) (iblk2 V c 3 t)) (ix2 p q)).trans ?_
  exact selfLoop_congr (V c main_v60) (V c main_v47) (V c main_v27) (V c main_v61)
    (iblk2 V c 0 t) (iblk2 V c 1 t) (iblk2 V c 2 t) (iblk2 V c 3 t) p ⟨t.val * 5000 + p.val, hlt⟩ q
    (blk_0 V c t p q _ rfl) (blk_1 V c t p q _ rfl) (blk_2 V c t p 0 _ rfl) (blk_3 V c t 0 q)

/-- An index of the result array is in point t's block iff each coordinate is in the block's range. -/
theorem mem_blk (t : Fin cfg2.N) (i : S100000x20.Idx) :
    i ∈ ((cfg2.win 4).blk t).view.set ↔ ∀ a : Fin 2, win2_4.index t a * S5000x20.size a ≤ (i a).val ∧ (i a).val < win2_4.index t a * S5000x20.size a + S5000x20.size a := by
  show i ∈ ((View.whole main_v62).slice (win2_4.rect t)).set ↔ _
  rw [View.set_slice_whole, Rect.mem_set_unit]
  exact Iff.rfl

/-- The 20 blocks of 5000 rows cover the result array: row r is in block r / 5000. -/
theorem cover (i : S100000x20.Idx) : ∃ t : Fin cfg2.N, (cfg2.win 4).flush t = true ∧ i ∈ ((cfg2.win 4).blk t).view.set := by
  have hi0 : (i 0).val < 100000 := (i 0).isLt
  have hi1 : (i 1).val < 20 := (i 1).isLt
  have hN : cfg2.N = 20 := N_2
  refine ⟨⟨(i 0).val / 5000, by rw [hN]; omega⟩, flush2_4 _, ?_⟩
  rw [mem_blk]
  obtain ⟨-, -, -, -, -, -, -, -, e0, e1⟩ := idx_facts ⟨(i 0).val / 5000, by rw [hN]; omega⟩
  intro a
  match a with
  | ⟨0, _⟩ =>
    show win2_4.index _ (0 : Fin 2) * 5000 ≤ (i 0).val ∧ (i 0).val < win2_4.index _ (0 : Fin 2) * 5000 + 5000
    rw [e0]; show (i 0).val / 5000 * 5000 ≤ (i 0).val ∧ (i 0).val < (i 0).val / 5000 * 5000 + 5000; omega
  | ⟨1, _⟩ =>
    show win2_4.index _ (1 : Fin 2) * 20 ≤ (i 1).val ∧ (i 1).val < win2_4.index _ (1 : Fin 2) * 20 + 20
    rw [e1]; omega

/-- The result array after the call is `G` of the arrays the call is entered with. -/
theorem final (c : Dev nD) : (dat2 V c).arrAt 4 cfg2.N = G V c :=
  (dat2 V c).arrAt_eq_of_cover 4 (G V c) (fun t _ => flushed V c t) cover

end Cert.KernelIdeal.Finalize2

end
-- ==== Proof.KernelOut.lean ====
/-
  The kernel program's result array is `OUT` of the arguments.

  The last pallas_call leaves agg + h · dcol + b in the result array, of the arrays it is entered with: the weighted edge sum
  of the second call's result, that result, the column dinv² and the second layer's bias row. Each of these was read back to
  the function of the arguments that the specification names.
-/
import proofs.«146932_j34840774705776_2_alg».proof.Proof.HostStages
import proofs.«146932_j34840774705776_2_alg».proof.Proof.RegionEncode
import proofs.«146932_j34840774705776_2_alg».proof.Proof.RegionFinalize1
import proofs.«146932_j34840774705776_2_alg».proof.Proof.RegionFinalize2

noncomputable section

namespace Cert.KernelIdeal.Out

open Cert.KernelIdeal Cert.KernelIdeal.Gen Idealize.ShloMosaic Idealize.ShloMosaic.TcCoe Idealize.SL.Sem
open Cert.KernelIdeal.Stages Cert.ReferenceIdeal.Read

variable (m : (ℓ : Loc nD τ sig) → Buf (Elt Ideal) ℓ) (ρ : Dev nD → PrngReg)

theorem kernel_out (c : Dev nD) :
    W6 m ρ c (Proc.devRef .tc main_v62) = Cert.GcnSpec.OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 4).trans ((Cert.KernelIdeal.Finalize2.final (V5 m ρ) c).trans ?_)
  unfold Cert.KernelIdeal.Finalize2.G Cert.GcnSpec.OUT
  show Cert.LibGcnLayers.selfLoop (W5 m ρ c (Proc.devRef .tc main_v60)) (W5 m ρ c (Proc.devRef .tc main_v47)) (W5 m ρ c (Proc.devRef .tc main_v27))
    (W5 m ρ c (Proc.devRef .tc main_v61)) = _
  rw [w5_agg, w5_v47, w4_h2, w5_v27, w4_v27, w3_v27, w2_v27, w1_dcol, w5_b2, dcol_twice]

end Cert.KernelIdeal.Out

end
-- ==== Proof.LibConcat2.lean ====
/-
  General lemmas: two rank-2 arrays joined along one axis, read at an index written with `ix2`.

  * `[a, n]` and `[a, m]` joined along axis 1 into `[a, c]`: column `k < n` of the result is column `k` of the first
    piece, column `n + k` is column `k` of the second;
  * `[n, b]` and `[m, b]` joined along axis 0 into `[c, b]`: row `k < n` is row `k` of the first piece, row `n + k` is
    row `k` of the second;
  * a sum over `Fin c` with `c = n + n` as the sum over the first `n` positions plus the sum over the last `n`.
  Nothing here mentions a program: the extents are variables and the shape relation is a hypothesis.
-/
import Idealize.ShloMosaic.Lib.Pipeline.Value
import Idealize.ShloMosaic.Lib.ValueIdx

noncomputable section

namespace Cert.LibConcat2

open Idealize.ShloMosaic Idealize.ShloMosaic.ValueIdx

variable {α : Type}

/-- Joined along the columns: a column of the first piece. -/
theorem concat_cols_left {a n m c : ℕ} (x : (⟨2, ![a, n]⟩ : Shape).Idx → α) (y : (⟨2, ![a, m]⟩ : Shape).Idx → α)
    (h : Shape.Concatenates [(⟨2, ![a, n]⟩ : Shape), ⟨2, ![a, m]⟩] (⟨2, ![a, c]⟩ : Shape) 1)
    (p : Fin a) (k : Fin n) (hk : k.val < c) :
    concatenate (⟨2, ![a, c]⟩ : Shape) 1 [⟨⟨2, ![a, n]⟩, x⟩, ⟨⟨2, ![a, m]⟩, y⟩] h (ix2 p (⟨k.val, hk⟩ : Fin c)) = x (ix2 p k) :=
  concatenate_pair_apply_left (1 : Fin (⟨2, ![a, c]⟩ : Shape).rank) x y h _ rfl (ix2 p k) (fun b => by
    match b with
    | ⟨0, _⟩ => rfl
    | ⟨1, _⟩ => rfl)

/-- Joined along the columns: a column of the second piece sits the first piece's width further on. -/
theorem concat_cols_right {a n m c : ℕ} (x : (⟨2, ![a, n]⟩ : Shape).Idx → α) (y : (⟨2, ![a, m]⟩ : Shape).Idx → α)
    (h : Shape.Concatenates [(⟨2, ![a, n]⟩ : Shape), ⟨2, ![a, m]⟩] (⟨2, ![a, c]⟩ : Shape) 1)
    (p : Fin a) (k : Fin m) (hk : n + k.val < c) :
    concatenate (⟨2, ![a, c]⟩ : Shape) 1 [⟨⟨2, ![a, n]⟩, x⟩, ⟨⟨2, ![a, m]⟩, y⟩] h (ix2 p (⟨n + k.val, hk⟩ : Fin c)) = y (ix2 p k) :=
  concatenate_pair_apply_right (1 : Fin (⟨2, ![a, c]⟩ : Shape).rank) x y h _ rfl rfl (ix2 p k) (fun b hb => by
    match b with
    | ⟨0, _⟩ => rfl
    | ⟨1, _⟩ => exact absurd rfl hb) (by show k.val + n = n + k.val; omega)

/-- Joined along the rows: a row of the first piece. -/
theorem concat_rows_top {n m c b : ℕ} (x : (⟨2, ![n, b]⟩ : Shape).Idx → α) (y : (⟨2, ![m, b]⟩ : Shape).Idx → α)
    (h : Shape.Concatenates [(⟨2, ![n, b]⟩ : Shape), ⟨2, ![m, b]⟩] (⟨2, ![c, b]⟩ : Shape) 0)
    (k : Fin n) (hk : k.val < c) (q : Fin b) :
    concatenate (⟨2, ![c, b]⟩ : Shape) 0 [⟨⟨2, ![n, b]⟩, x⟩, ⟨⟨2, ![m, b]⟩, y⟩] h (ix2 (⟨k.val, hk⟩ : Fin c) q) = x (ix2 k q) :=
  concatenate_pair_apply_left (0 : Fin (⟨2, ![c, b]⟩ : Shape).rank) x y h _ rfl (ix2 k q) (fun d => by
    match d with
    | ⟨0, _⟩ => rfl
    | ⟨1, _⟩ => rfl)

/-- Joined along the rows: a row of the second piece sits the first piece's height further down. -/
theorem concat_rows_bottom {n m c b : ℕ} (x : (⟨2, ![n, b]⟩ : Shape).Idx → α) (y : (⟨2, ![m, b]⟩ : Shape).Idx → α)
    (h : Shape.Concatenates [(⟨2, ![n, b]⟩ : Shape), ⟨2, ![m, b]⟩] (⟨2, ![c, b]⟩ : Shape) 0)
    (k : Fin m) (hk : n + k.val < c) (q : Fin b) :
    concatenate (⟨2, ![c, b]⟩ : Shape) 0 [⟨⟨2, ![n, b]⟩, x⟩, ⟨⟨2, ![m, b]⟩, y⟩] h (ix2 (⟨n + k.val, hk⟩ : Fin c) q) = y (ix2 k q) :=
  concatenate_pair_apply_right (0 : Fin (⟨2, ![c, b]⟩ : Shape).rank) x y h _ rfl rfl (ix2 k q) (fun d hd => by
    match d with
    | ⟨0, _⟩ => exact absurd rfl hd
    | ⟨1, _⟩ => rfl) (by show k.val + n = n + k.val; omega)

/-- A sum over `c = n + n` positions is the sum over the first `n` plus the sum over the last `n`. -/
theorem sum_two_halves {M : Type*} [AddCommMonoid M] {n c : ℕ} (hc : c = n + n) (f : Fin c → M) :
    ∑ q : Fin c, f q
      = ∑ k : Fin n, f ⟨k.val, by have := k.isLt; omega⟩ + ∑ k : Fin n, f ⟨n + k.val, by have := k.isLt; omega⟩ := by
  subst hc
  rw [Fin.sum_univ_add]
  rfl

end Cert.LibConcat2

end
-- ==== Proof.LibBroadcastRead.lean ====
/-
  Two broadcasts read at an index.

  A single number broadcast into an array of any shape is that number at every index. A one-column array [a, 1] laid
  along every row of an [a, b] array by a broadcast along both axes is, at (p, c), the column's entry p.

  General lemmas: nothing here mentions a program; the shapes and extents are variables.
-/
import Idealize.ShloMosaic.Lib.Pipeline.Value
import Idealize.ShloMosaic.Lib.ValueIdx
import Idealize.ShloMosaic.Lib.ValueLayout

namespace Cert.LibBroadcastRead

open Idealize.ShloMosaic Idealize.ShloMosaic.ValueIdx

variable {α : Type}

/-- A rank-0 array broadcast into any shape reads, at every index, its one entry. -/
theorem broadcastInDim_scalar_apply {t : Shape} (hd : (⟨0, ![]⟩ : Shape).BroadcastsInDim t ![])
    (x : (⟨0, ![]⟩ : Shape).Idx → α) (j : t.Idx) : broadcastInDim t ![] hd x j = x ix0 :=
  broadcastInDim_apply ![] hd x j ix0 fun ax => ax.elim0

/-- A column [a, 1] laid along every row of an [a, b] array by a broadcast along both axes reads, at (p, c), the
    column's entry p. -/
theorem broadcastInDim_a1_ab_apply {a b : ℕ} (hd : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hd v (ix2 p c) = v (ix2 p (0 : Fin 1)) := by
  refine broadcastInDim_apply ![0, 1] hd v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibBroadcastRead
-- ==== Proof.RefIsSpec.lean ====
/-
  The reference program computes the specified function.

  The reference is a chain of host operations: two dense encoders (a product plus a bias row laid along every row), joined
  along the columns, rectified (a maximum with a rank-0 zero broadcast), times a stacked weight; then, twice, a weighted sum
  over incoming edges plus the node's own row times its squared inverse-root degree (a one-column array laid along every
  row) plus a bias row — after the first of these a rectifier and a product with the second layer's weight.

  First part: each host spelling, as a whole-array equality over variable extents, is the corresponding function of the
  dense-stage lemmas (`relu`, `selfLoop`, `fin1`, `encode`). The only step with an index argument is the encoder: a
  product of the rectified join [relu u | relu v] with a stacked weight, summed over c = d + d positions, is the sum over the
  first d positions (which read u and the weight's top rows) plus the sum over the last d (which read v and the bottom
  rows). Sums and products on the extended reals are total, commutative and associative, so nothing needs finiteness.

  Second part: the program's stages, opened only as far as the operations named above, are those spellings; the edge
  sums are the same host operations on both sides and stay closed.
-/
import proofs.«146932_j34840774705776_2_alg».proof.Proof.Spec
import proofs.«146932_j34840774705776_2_alg».proof.Proof.LibConcat2
import proofs.«146932_j34840774705776_2_alg».proof.Proof.LibBroadcastRead

noncomputable section

namespace Cert.GcnRef

open Cert.ReferenceIdeal Cert.ReferenceIdeal.Read Cert.ReferenceIdeal.Gen Idealize.ShloMosaic Idealize.ShloMosaic.ValueIdx
open Cert.LibGcnLayers Cert.LibAffine Cert.LibMatProd Cert.GcnSpec

/-! ## The host's spellings, over variable extents -/

/-- The host's rectifier: the maximum with a rank-0 zero broadcast into the operand's shape. -/
theorem hostRelu_eq {S : Shape} (hb : (⟨0, ![]⟩ : Shape).BroadcastsInDim S ![]) (x : FVec Ideal S .f32) :
    maximumf x (broadcastInDim S ![] hb (constant (F := Ideal) ⟨0, ![]⟩ .f32 0x00000000#32)) = relu x := by
  funext i
  rw [maximumf_apply, LibBroadcastRead.broadcastInDim_scalar_apply, constant_apply, relu_apply]

variable {a d n : ℕ}

/-- The host's chain for `selfLoop`: agg + h · (the column laid along every row) + (the row laid along every row). -/
theorem hostSelfLoop_eq (hd1 : (⟨2, ![a, 1]⟩ : Shape).BroadcastsInDim ⟨2, ![a, n]⟩ ![0, 1])
    (hd2 : (⟨2, ![1, n]⟩ : Shape).BroadcastsInDim ⟨2, ![a, n]⟩ ![0, 1])
    (agg h : FVec Ideal ⟨2, ![a, n]⟩ .f32) (dcol : FVec Ideal ⟨2, ![a, 1]⟩ .f32) (b : FVec Ideal ⟨2, ![1, n]⟩ .f32) :
    addf (addf agg (mulf h (broadcastInDim ⟨2, ![a, n]⟩ ![0, 1] hd1 dcol))) (broadcastInDim ⟨2, ![a, n]⟩ ![0, 1] hd2 b)
      = selfLoop agg h dcol b := by
  funext i
  obtain ⟨p, j, rfl⟩ : ∃ (p : Fin a) (j : Fin n), i = ix2 p j := ⟨i 0, i 1, eq_ix2 i⟩
  rw [addf_apply, addf_apply, mulf_apply, LibBroadcastRead.broadcastInDim_a1_ab_apply, LibAffine.broadcastInDim_1n_an_apply,
    selfLoop_ix2]

/-- The host's chain for `fin1`: the rectified `selfLoop` chain times a weight. -/
theorem hostFin1_eq (D : DotDims ⟨2, ![a, d]⟩ ⟨2, ![d, n]⟩ ⟨2, ![a, n]⟩) (P : PlainDot D)
    (hd1 : (⟨2, ![a, 1]⟩ : Shape).BroadcastsInDim ⟨2, ![a, d]⟩ ![0, 1])
    (hd2 : (⟨2, ![1, d]⟩ : Shape).BroadcastsInDim ⟨2, ![a, d]⟩ ![0, 1])
    (hz : (⟨0, ![]⟩ : Shape).BroadcastsInDim ⟨2, ![a, d]⟩ ![]) (prec : Option ContractPrecision)
    (agg h : FVec Ideal ⟨2, ![a, d]⟩ .f32) (dcol : FVec Ideal ⟨2, ![a, 1]⟩ .f32) (b : FVec Ideal ⟨2, ![1, d]⟩ .f32)
    (w : FVec Ideal ⟨2, ![d, n]⟩ .f32) :
    Host.dotGeneral D prec
      (maximumf
        (addf (addf agg (mulf h (broadcastInDim ⟨2, ![a, d]⟩ ![0, 1] hd1 dcol))) (broadcastInDim ⟨2, ![a, d]⟩ ![0, 1] hd2 b))
        (broadcastInDim ⟨2, ![a, d]⟩ ![] hz (constant (F := Ideal) ⟨0, ![]⟩ .f32 0x00000000#32)))
      w = fin1 agg h dcol b w := by
  rw [hostSelfLoop_eq, hostRelu_eq, hostDot_eq D P.hr P.hs P.hl0 P.hl1 P.hr0 P.hr1]
  rfl

variable {kx kc c : ℕ}

/-- The host's chain for `encode`: two dense layers joined along the columns, rectified, times a stacked [c, n] weight
    with c = d + d, whose top d rows are `wa` and bottom d rows `wb`. -/
theorem hostEncode_eq (hc : c = d + d)
    (D0 : DotDims ⟨2, ![a, kx]⟩ ⟨2, ![kx, d]⟩ ⟨2, ![a, d]⟩) (P0 : PlainDot D0)
    (D1 : DotDims ⟨2, ![a, kc]⟩ ⟨2, ![kc, d]⟩ ⟨2, ![a, d]⟩) (P1 : PlainDot D1)
    (D2 : DotDims ⟨2, ![a, c]⟩ ⟨2, ![c, n]⟩ ⟨2, ![a, n]⟩) (P2 : PlainDot D2)
    (hd : (⟨2, ![1, d]⟩ : Shape).BroadcastsInDim ⟨2, ![a, d]⟩ ![0, 1])
    (hcat : Shape.Concatenates [(⟨2, ![a, d]⟩ : Shape), ⟨2, ![a, d]⟩] (⟨2, ![a, c]⟩ : Shape) 1)
    (hz : (⟨0, ![]⟩ : Shape).BroadcastsInDim ⟨2, ![a, c]⟩ ![]) (prec : Option ContractPrecision)
    (x : FVec Ideal ⟨2, ![a, kx]⟩ .f32) (cnn : FVec Ideal ⟨2, ![a, kc]⟩ .f32) (fw : FVec Ideal ⟨2, ![kx, d]⟩ .f32)
    (fb : FVec Ideal ⟨2, ![1, d]⟩ .f32) (cw : FVec Ideal ⟨2, ![kc, d]⟩ .f32) (cb : FVec Ideal ⟨2, ![1, d]⟩ .f32)
    (w1 : FVec Ideal ⟨2, ![c, n]⟩ .f32) (wa wb : FVec Ideal ⟨2, ![d, n]⟩ .f32)
    (hwa : ∀ (q : Fin d) (j : Fin n) (h : q.val < c), wa (ix2 q j) = w1 (ix2 (⟨q.val, h⟩ : Fin c) j))
    (hwb : ∀ (q : Fin d) (j : Fin n) (h : d + q.val < c), wb (ix2 q j) = w1 (ix2 (⟨d + q.val, h⟩ : Fin c) j)) :
    Host.dotGeneral D2 prec
      (maximumf
        (concatenate (⟨2, ![a, c]⟩ : Shape) 1
          [⟨⟨2, ![a, d]⟩, addf (Host.dotGeneral D0 prec x fw) (broadcastInDim ⟨2, ![a, d]⟩ ![0, 1] hd fb)⟩,
            ⟨⟨2, ![a, d]⟩, addf (Host.dotGeneral D1 prec cnn cw) (broadcastInDim ⟨2, ![a, d]⟩ ![0, 1] hd cb)⟩] hcat)
        (broadcastInDim ⟨2, ![a, c]⟩ ![] hz (constant (F := Ideal) ⟨0, ![]⟩ .f32 0x00000000#32)))
      w1 = encode x cnn fw fb cw cb wa wb := by
  rw [hostAffine_eq D0 P0.hr P0.hs P0.hl0 P0.hl1 P0.hr0 P0.hr1 hd prec x fw fb,
    hostAffine_eq D1 P1.hr P1.hs P1.hl0 P1.hl1 P1.hr0 P1.hr1 hd prec cnn cw cb, hostRelu_eq,
    hostDot_eq D2 P2.hr P2.hs P2.hl0 P2.hl1 P2.hr0 P2.hr1]
  funext i
  obtain ⟨p, j, rfl⟩ : ∃ (p : Fin a) (j : Fin n), i = ix2 p j := ⟨i 0, i 1, eq_ix2 i⟩
  unfold encode
  rw [mm_ix2, addf_apply, mm_ix2, mm_ix2, LibConcat2.sum_two_halves hc]
  refine congrArg₂ (· + ·) (Finset.sum_congr rfl fun q _ => ?_) (Finset.sum_congr rfl fun q _ => ?_)
  · rw [relu_apply, relu_apply, LibConcat2.concat_cols_left, ← hwa q j]
  · rw [relu_apply, relu_apply, LibConcat2.concat_cols_right, ← hwb q j]

/-! ## The program's stages -/

theorem dot_32_32 : PlainDot dot_S100000x32_S32x32_S100000x32_1_0_0_1_n_n := PlainDot.of_lists _ rfl rfl rfl rfl rfl rfl
theorem dot_128_32 : PlainDot dot_S100000x128_S128x32_S100000x32_1_0_0_1_n_n := PlainDot.of_lists _ rfl rfl rfl rfl rfl rfl
theorem dot_64_32 : PlainDot dot_S100000x64_S64x32_S100000x32_1_0_0_1_n_n := PlainDot.of_lists _ rfl rfl rfl rfl rfl rfl
theorem dot_32_20 : PlainDot dot_S100000x32_S32x20_S100000x20_1_0_0_1_n_n := PlainDot.of_lists _ rfl rfl rfl rfl rfl rfl

/-- The encoder times the first layer's weight. -/
theorem ref_H (x0 : (⟨S100000x32, .f32⟩ : BufTy).Contents (Elt Ideal)) (x1 : (⟨S100000x128, .f32⟩ : BufTy).Contents (Elt Ideal)) (x3 : (⟨S32x32, .f32⟩ : BufTy).Contents (Elt Ideal)) (x4 : (⟨S32, .f32⟩ : BufTy).Contents (Elt Ideal)) (x5 : (⟨S128x32, .f32⟩ : BufTy).Contents (Elt Ideal)) (x6 : (⟨S32, .f32⟩ : BufTy).Contents (Elt Ideal)) (x7 : (⟨S64x32, .f32⟩ : BufTy).Contents (Elt Ideal)) :
    val_main_v14 (F := Ideal) x0 x1 x3 x4 x5 x6 x7 = H x0 x1 x3 x4 x5 x6 x7 := by
  unfold val_main_v14 val_main_v13 val_main_v12 val_main_v11 val_main_v10 val_main_v8 val_main_v7 val_main_v6 val_main_v4
    val_main_call0_v0 val_main_call0_cst H
  exact hostEncode_eq (c := 64) (d := 32) rfl _ dot_32_32 _ dot_128_32 _ dot_64_32 _ _ _ none x0 x1 x3
    (val_main_v5 (F := Ideal) x4) x5 (val_main_v9 (F := Ideal) x6) x7 (top x7) (bot x7) (fun _ _ _ => rfl) (fun _ _ _ => rfl)

/-- The first edge sum is the edge sum of the encoder's output. -/
theorem ref_A1 (x0 : (⟨S100000x32, .f32⟩ : BufTy).Contents (Elt Ideal)) (x1 : (⟨S100000x128, .f32⟩ : BufTy).Contents (Elt Ideal)) (x2 : (⟨S2x3200000, .i32⟩ : BufTy).Contents (Elt Ideal)) (x3 : (⟨S32x32, .f32⟩ : BufTy).Contents (Elt Ideal)) (x4 : (⟨S32, .f32⟩ : BufTy).Contents (Elt Ideal)) (x5 : (⟨S128x32, .f32⟩ : BufTy).Contents (Elt Ideal)) (x6 : (⟨S32, .f32⟩ : BufTy).Contents (Elt Ideal)) (x7 : (⟨S64x32, .f32⟩ : BufTy).Contents (Elt Ideal)) :
    val_main_v49 (F := Ideal) x0 x1 x2 x3 x4 x5 x6 x7 = edgeSum32 (val_main_v14 (F := Ideal) x0 x1 x3 x4 x5 x6 x7) x2 := by
  unfold val_main_v49 val_main_v46 val_main_v43 edgeSum32
  rfl

/-- The first convolution, rectified, times the second layer's weight. -/
theorem ref_H2 (x0 : (⟨S100000x32, .f32⟩ : BufTy).Contents (Elt Ideal)) (x1 : (⟨S100000x128, .f32⟩ : BufTy).Contents (Elt Ideal)) (x2 : (⟨S2x3200000, .i32⟩ : BufTy).Contents (Elt Ideal)) (x3 : (⟨S32x32, .f32⟩ : BufTy).Contents (Elt Ideal)) (x4 : (⟨S32, .f32⟩ : BufTy).Contents (Elt Ideal)) (x5 : (⟨S128x32, .f32⟩ : BufTy).Contents (Elt Ideal)) (x6 : (⟨S32, .f32⟩ : BufTy).Contents (Elt Ideal)) (x7 : (⟨S64x32, .f32⟩ : BufTy).Contents (Elt Ideal)) (x8 : (⟨S32, .f32⟩ : BufTy).Contents (Elt Ideal)) (x9 : (⟨S32x20, .f32⟩ : BufTy).Contents (Elt Ideal)) :
    val_main_v59 (F := Ideal) x0 x1 x2 x3 x4 x5 x6 x7 x8 x9 = H2 x0 x1 x2 x3 x4 x5 x6 x7 x8 x9 := by
  unfold val_main_v59 val_main_v58 val_main_v57 val_main_v56 val_main_v54 val_main_v53 val_main_v52 val_main_call1_v0
    val_main_call1_cst H2
  rw [ref_A1, ref_H]
  exact hostFin1_eq _ dot_32_20 _ _ _ none _ _ _ _ _

/-- The second edge sum is the edge sum of the second layer's input. -/
theorem ref_A2 (x0 : (⟨S100000x32, .f32⟩ : BufTy).Contents (Elt Ideal)) (x1 : (⟨S100000x128, .f32⟩ : BufTy).Contents (Elt Ideal)) (x2 : (⟨S2x3200000, .i32⟩ : BufTy).Contents (Elt Ideal)) (x3 : (⟨S32x32, .f32⟩ : BufTy).Contents (Elt Ideal)) (x4 : (⟨S32, .f32⟩ : BufTy).Contents (Elt Ideal)) (x5 : (⟨S128x32, .f32⟩ : BufTy).Contents (Elt Ideal)) (x6 : (⟨S32, .f32⟩ : BufTy).Contents (Elt Ideal)) (x7 : (⟨S64x32, .f32⟩ : BufTy).Contents (Elt Ideal)) (x8 : (⟨S32, .f32⟩ : BufTy).Contents (Elt Ideal)) (x9 : (⟨S32x20, .f32⟩ : BufTy).Contents (Elt Ideal)) :
    val_main_v94 (F := Ideal) x0 x1 x2 x3 x4 x5 x6 x7 x8 x9
      = edgeSum20 (val_main_v59 (F := Ideal) x0 x1 x2 x3 x4 x5 x6 x7 x8 x9) x2 := by
  unfold val_main_v94 val_main_v91 val_main_v88 edgeSum20
  rfl

/-- The reference's result is the specified function of its arguments. -/
theorem ref_eq_out (x0 : (⟨S100000x32, .f32⟩ : BufTy).Contents (Elt Ideal)) (x1 : (⟨S100000x128, .f32⟩ : BufTy).Contents (Elt Ideal)) (x2 : (⟨S2x3200000, .i32⟩ : BufTy).Contents (Elt Ideal)) (x3 : (⟨S32x32, .f32⟩ : BufTy).Contents (Elt Ideal)) (x4 : (⟨S32, .f32⟩ : BufTy).Contents (Elt Ideal)) (x5 : (⟨S128x32, .f32⟩ : BufTy).Contents (Elt Ideal)) (x6 : (⟨S32, .f32⟩ : BufTy).Contents (Elt Ideal)) (x7 : (⟨S64x32, .f32⟩ : BufTy).Contents (Elt Ideal)) (x8 : (⟨S32, .f32⟩ : BufTy).Contents (Elt Ideal)) (x9 : (⟨S32x20, .f32⟩ : BufTy).Contents (Elt Ideal)) (x10 : (⟨S20, .f32⟩ : BufTy).Contents (Elt Ideal)) :
    Cert.ReferenceIdeal.Read.val_main_v102 (F := Ideal) x0 x1 x2 x3 x4 x5 x6 x7 x8 x9 x10 = Cert.GcnSpec.OUT x0 x1 x2 x3 x4 x5 x6 x7 x8 x9 x10 := by
  unfold val_main_v102 val_main_v101 val_main_v99 val_main_v98 val_main_v97 OUT
  rw [ref_A2, ref_H2]
  exact hostSelfLoop_eq _ _ _ _ _ _

end Cert.GcnRef

end
-- ==== Proof.lean ====
/-
  The two programs compute one function of their arguments, and leave their arguments as launched.

  With x, cnn the node features, (src, dst) the edge list, and per node i the factor dinv i = (1 + #{edges into i})^(-1/2):
    H   = relu(x · fc_W + fc_b) · W1[0:32] + relu(cnn · cnn_W + cnn_b) · W1[32:64]
    H2  = relu(A(H) + H · dinv² + b1) · W2
    OUT = A(H2) + H2 · dinv² + b2
  where A(h) is, for each node, the sum over its incoming edges e of h[src e] · dinv[src e] · dinv[dst e]
  (`Cert.GcnSpec.OUT`). Over the extended reals the kernel's result array ends at OUT of its arguments' launch contents,
  and so does the reference's; from memories that agree on the arguments the two results are therefore equal, entry by
  entry. Every run of either program terminates with its argument arrays unchanged.
-/
import proofs.«146932_j34840774705776_2_alg».proof.Defs
import proofs.«146932_j34840774705776_2_alg».proof.Proof.Gen.Kernel
import proofs.«146932_j34840774705776_2_alg».proof.Proof.Gen.Kernel.Skeleton
import proofs.«146932_j34840774705776_2_alg».proof.Proof.Gen.Kernel.Launch
import proofs.«146932_j34840774705776_2_alg».proof.Proof.Gen.Kernel.Points
import proofs.«146932_j34840774705776_2_alg».proof.Proof.Gen.Kernel.Frame
import proofs.«146932_j34840774705776_2_alg».proof.Proof.Gen.KernelIdeal
import proofs.«146932_j34840774705776_2_alg».proof.Proof.Gen.KernelIdeal.Skeleton
import proofs.«146932_j34840774705776_2_alg».proof.Proof.Gen.KernelIdeal.Launch
import proofs.«146932_j34840774705776_2_alg».proof.Proof.Gen.KernelIdeal.Points
import proofs.«146932_j34840774705776_2_alg».proof.Proof.Gen.KernelIdeal.Frame
import proofs.«146932_j34840774705776_2_alg».proof.Proof.Gen.ReferenceIdeal
import proofs.«146932_j34840774705776_2_alg».proof.Proof.Gen.Pre_finite_inputs
import proofs.«146932_j34840774705776_2_alg».proof.Proof.Gen.ReferenceIdeal.Run
import proofs.«146932_j34840774705776_2_alg».proof.Proof.Gen.ReferenceIdeal.Read
import Idealize.ShloMosaic.Adequacy
import Idealize.ShloMosaic.Init
import proofs.«146932_j34840774705776_2_alg».proof.Proof.OutRun
import proofs.«146932_j34840774705776_2_alg».proof.Proof.KernelOut
import proofs.«146932_j34840774705776_2_alg».proof.Proof.RefIsSpec

noncomputable section

namespace Cert.Proof.GcnClaims

open Idealize.ShloMosaic Idealize.SL.Sem

/-- The kernel runs and ends with its arguments unchanged. -/
theorem frame_K : Cert.frame_Kernel := fun m ρ _ => Cert.Kernel.Gen.frame m ρ

/-- So does the kernel read over the extended reals. -/
theorem frame_KI : Cert.frame_KernelIdeal := fun m ρ _ => Cert.KernelIdeal.Gen.frame m ρ

/-- So does the reference: its run names the result and the arguments; keep the arguments. -/
theorem frame_RI : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- Over the extended reals the kernel's result array ends at `OUT` of its arguments and the reference's at `OUT` of its
    own; the arguments agree, so the results are equal. -/
theorem algebraic : Cert.algebraic_KernelIdeal_ReferenceIdeal := by
  intro m ρ m' ρ' _ hagree
  refine ⟨fun c => Cert.KernelIdeal.Gen.W6 m ρ c (Proc.devRef .tc Cert.KernelIdeal.main_v62),
    Cert.KernelIdeal.OutRun.run_out (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v102_eq, Cert.GcnRef.ref_eq_out, h0, h1, h2, h3, h4, h5, h6, h7, h8, h9, h10]
  exact (Cert.KernelIdeal.Out.kernel_out m ρ c).symm

end Cert.Proof.GcnClaims

namespace Cert.Proof

theorem claim : Cert.Claim :=
  ⟨Cert.Kernel.Gen.facts, Cert.KernelIdeal.Gen.facts, Cert.ReferenceIdeal.Gen.facts, Cert.Pre_finite_inputs.Gen.facts,
    GcnClaims.frame_K, GcnClaims.frame_KI, GcnClaims.frame_RI, GcnClaims.preserves, GcnClaims.algebraic⟩

end Cert.Proof

end
